-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S784x4096 : Shape := ⟨2, ![784, 4096]⟩
abbrev S1x1024 : Shape := ⟨2, ![1, 1024]⟩
abbrev S1024x1024 : Shape := ⟨2, ![1024, 1024]⟩
abbrev S1x256 : Shape := ⟨2, ![1, 256]⟩
abbrev S256x512 : Shape := ⟨2, ![256, 512]⟩
abbrev S1x512 : Shape := ⟨2, ![1, 512]⟩
abbrev S512x256 : Shape := ⟨2, ![512, 256]⟩
abbrev S256x128 : Shape := ⟨2, ![256, 128]⟩
abbrev S1x128 : Shape := ⟨2, ![1, 128]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bitsLt_bf16_f32 : FTy.bits .bf16 < FTy.bits .f32
  bcast_S_S784x4096 : S_.BroadcastsInDim S784x4096 (![] : Fin 0 → Fin S784x4096.rank)
  reducesTo_S784x4096_S_d0_1 : S784x4096.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x256 : S_.BroadcastsInDim S1x256 (![] : Fin 0 → Fin S1x256.rank)
  reducesTo_S1x256_S_d0_1 : S1x256.ReducesTo [0, 1] S_
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x256 : S_.BroadcastsInDim S512x256 (![] : Fin 0 → Fin S512x256.rank)
  reducesTo_S512x256_S_d0_1 : S512x256.ReducesTo [0, 1] S_
  bcast_S_S256x128 : S_.BroadcastsInDim S256x128 (![] : Fin 0 → Fin S256x128.rank)
  reducesTo_S256x128_S_d0_1 : S256x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg10 : FVec F S1x128 .f32) (main_v47 : IVec S_ 1) (main_v51 : IVec S256x128 1) (main_c_17 : IVec S_ 1) : IVec S_ 1 :=
  let main_v52 : IVec S_ 1 := (fun x v => Host.reduce IntOp.andi x v reducesTo_S256x128_S_d0_1 h_S_) main_v51 main_c_17
  let main_v53 : IVec S_ 1 := andi main_v47 main_v52
  let main_v54 : FVec F S1x128 .f32 := Host.absf main_arg10
  let main_cst_18 : FVec F S_ .f32 := constant S_ .f32 0x7F800000#32
  let main_v55 : FVec F S1x128 .f32 := broadcastInDim S1x128 ![] bcast_S_S1x128 main_cst_18
  let main_v56 : IVec S1x128 1 := cmpf .olt main_v54 main_v55
  let main_c_19 : IVec S_ 1 := constantI S_ 1 1#1
  let main_v57 : IVec S_ 1 := (fun x v => Host.reduce IntOp.andi x v reducesTo_S1x128_S_d0_1 h_S_) main_v56 main_c_19
  let main_v58 : IVec S_ 1 := andi main_v53 main_v57
  main_v58

def fn_part2 {F : FTy → Type} [FloatOps F] (main_arg7 : FVec F S512x256 .bf16) (main_arg8 : FVec F S1x256 .f32) (main_arg9 : FVec F S256x128 .bf16) (main_arg10 : FVec F S1x128 .f32) (main_v31 : IVec S_ 1) (main_v34 : IVec S1x512 1) : IVec S_ 1 :=
  let main_c_11 : IVec S_ 1 := constantI S_ 1 1#1
  let main_v35 : IVec S_ 1 := (fun x v => Host.reduce IntOp.andi x v reducesTo_S1x512_S_d0_1 h_S_) main_v34 main_c_11
  let main_v36 : IVec S_ 1 := andi main_v31 main_v35
  let main_v37 : FVec F S512x256 .f32 := (extf .f32 · bitsLt_bf16_f32) main_arg7
  let main_v38 : FVec F S512x256 .f32 := Host.absf main_v37
  let main_cst_12 : FVec F S_ .f32 := constant S_ .f32 0x7F800000#32
  let main_v39 : FVec F S512x256 .f32 := broadcastInDim S512x256 ![] bcast_S_S512x256 main_cst_12
  let main_v40 : IVec S512x256 1 := cmpf .olt main_v38 main_v39
  let main_c_13 : IVec S_ 1 := constantI S_ 1 1#1
  let main_v41 : IVec S_ 1 := (fun x v => Host.reduce IntOp.andi x v reducesTo_S512x256_S_d0_1 h_S_) main_v40 main_c_13
  let main_v42 : IVec S_ 1 := andi main_v36 main_v41
  let main_v43 : FVec F S1x256 .f32 := Host.absf main_arg8
  let main_cst_14 : FVec F S_ .f32 := constant S_ .f32 0x7F800000#32
  let main_v44 : FVec F S1x256 .f32 := broadcastInDim S1x256 ![] bcast_S_S1x256 main_cst_14
  let main_v45 : IVec S1x256 1 := cmpf .olt main_v43 main_v44
  let main_c_15 : IVec S_ 1 := constantI S_ 1 1#1
  let main_v46 : IVec S_ 1 := (fun x v => Host.reduce IntOp.andi x v reducesTo_S1x256_S_d0_1 h_S_) main_v45 main_c_15
  let main_v47 : IVec S_ 1 := andi main_v42 main_v46
  let main_v48 : FVec F S256x128 .f32 := (extf .f32 · bitsLt_bf16_f32) main_arg9
  let main_v49 : FVec F S256x128 .f32 := Host.absf main_v48
  let main_cst_16 : FVec F S_ .f32 := constant S_ .f32 0x7F800000#32
  let main_v50 : FVec F S256x128 .f32 := broadcastInDim S256x128 ![] bcast_S_S256x128 main_cst_16
  let main_v51 : IVec S256x128 1 := cmpf .olt main_v49 main_v50
  let main_c_17 : IVec S_ 1 := constantI S_ 1 1#1
  fn_part3 (F := F) main_arg10 main_v47 main_v51 main_c_17

def fn_part1 {F : FTy → Type} [FloatOps F] (main_arg4 : FVec F S1x256 .f32) (main_arg5 : FVec F S256x512 .bf16) (main_arg6 : FVec F S1x512 .f32) (main_arg7 : FVec F S512x256 .bf16) (main_arg8 : FVec F S1x256 .f32) (main_arg9 : FVec F S256x128 .bf16) (main_arg10 : FVec F S1x128 .f32) (main_v14 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v14 main_v19
  let main_v21 : FVec F S1x256 .f32 := Host.absf main_arg4
  let main_cst_6 : FVec F S_ .f32 := constant S_ .f32 0x7F800000#32
  let main_v22 : FVec F S1x256 .f32 := broadcastInDim S1x256 ![] bcast_S_S1x256 main_cst_6
  let main_v23 : IVec S1x256 1 := cmpf .olt main_v21 main_v22
  let main_c_7 : IVec S_ 1 := constantI S_ 1 1#1
  let main_v24 : IVec S_ 1 := (fun x v => Host.reduce IntOp.andi x v reducesTo_S1x256_S_d0_1 h_S_) main_v23 main_c_7
  let main_v25 : IVec S_ 1 := andi main_v20 main_v24
  let main_v26 : FVec F S256x512 .f32 := (extf .f32 · bitsLt_bf16_f32) main_arg5
  let main_v27 : FVec F S256x512 .f32 := Host.absf main_v26
  let main_cst_8 : FVec F S_ .f32 := constant S_ .f32 0x7F800000#32
  let main_v28 : FVec F S256x512 .f32 := broadcastInDim S256x512 ![] bcast_S_S256x512 main_cst_8
  let main_v29 : IVec S256x512 1 := cmpf .olt main_v27 main_v28
  let main_c_9 : IVec S_ 1 := constantI S_ 1 1#1
  let main_v30 : IVec S_ 1 := (fun x v => Host.reduce IntOp.andi x v reducesTo_S256x512_S_d0_1 h_S_) main_v29 main_c_9
  let main_v31 : IVec S_ 1 := andi main_v25 main_v30
  let main_v32 : FVec F S1x512 .f32 := Host.absf main_arg6
  let main_cst_10 : FVec F S_ .f32 := constant S_ .f32 0x7F800000#32
  let main_v33 : FVec F S1x512 .f32 := broadcastInDim S1x512 ![] bcast_S_S1x512 main_cst_10
  let main_v34 : IVec S1x512 1 := cmpf .olt main_v32 main_v33
  fn_part2 (F := F) main_arg7 main_arg8 main_arg9 main_arg10 main_v31 main_v34

def fn {F : FTy → Type} [FloatOps F] (main_arg0 : FVec F S8192x1x28x28 .f32) (main_arg1 : FVec F S784x4096 .bf16) (main_arg2 : FVec F S1x1024 .f32) (main_arg3 : FVec F S1024x1024 .bf16) (main_arg4 : FVec F S1x256 .f32) (main_arg5 : FVec F S256x512 .bf16) (main_arg6 : FVec F S1x512 .f32) (main_arg7 : FVec F S512x256 .bf16) (main_arg8 : FVec F S1x256 .f32) (main_arg9 : FVec F S256x128 .bf16) (main_arg10 : FVec F S1x128 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S784x4096 .f32 := (extf .f32 · bitsLt_bf16_f32) main_arg1
  let main_v5 : FVec F S784x4096 .f32 := Host.absf main_v4
  let main_cst_0 : FVec F S_ .f32 := constant S_ .f32 0x7F800000#32
  let main_v6 : FVec F S784x4096 .f32 := broadcastInDim S784x4096 ![] bcast_S_S784x4096 main_cst_0
  let main_v7 : IVec S784x4096 1 := cmpf .olt main_v5 main_v6
  let main_c_1 : IVec S_ 1 := constantI S_ 1 1#1
  let main_v8 : IVec S_ 1 := (fun x v => Host.reduce IntOp.andi x v reducesTo_S784x4096_S_d0_1 h_S_) main_v7 main_c_1
  let main_v9 : IVec S_ 1 := andi main_v3 main_v8
  let main_v10 : FVec F S1x1024 .f32 := Host.absf main_arg2
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v9 main_v13
  let main_v15 : FVec F S1024x1024 .f32 := (extf .f32 · bitsLt_bf16_f32) main_arg3
  let main_v16 : FVec F S1024x1024 .f32 := Host.absf main_v15
  let main_cst_4 : FVec F S_ .f32 := constant S_ .f32 0x7F800000#32
  fn_part1 (F := F) main_arg4 main_arg5 main_arg6 main_arg7 main_arg8 main_arg9 main_arg10 main_v14 main_v16 main_cst_4
-- ==== Kernel.lean ====
abbrev S8192x1x28x28 : Shape := ⟨4, ![8192, 1, 28, 28]⟩
abbrev S784x4096 : Shape := ⟨2, ![784, 4096]⟩
abbrev S1x1024 : Shape := ⟨2, ![1, 1024]⟩
abbrev S1024x1024 : Shape := ⟨2, ![1024, 1024]⟩
abbrev S1x256 : Shape := ⟨2, ![1, 256]⟩
abbrev S256x512 : Shape := ⟨2, ![256, 512]⟩
abbrev S1x512 : Shape := ⟨2, ![1, 512]⟩
abbrev S512x256 : Shape := ⟨2, ![512, 256]⟩
abbrev S256x128 : Shape := ⟨2, ![256, 128]⟩
abbrev S1x128 : Shape := ⟨2, ![1, 128]⟩
abbrev S1x28x28x8192 : Shape := ⟨4, ![1, 28, 28, 8192]⟩
abbrev S784x64x128 : Shape := ⟨3, ![784, 64, 128]⟩
abbrev S10x8192 : Shape := ⟨2, ![10, 8192]⟩
abbrev S784x16x128 : Shape := ⟨3, ![784, 16, 128]⟩
abbrev S10x2048 : Shape := ⟨2, ![10, 2048]⟩
abbrev S784x2048 : Shape := ⟨2, ![784, 2048]⟩
abbrev S784x1024 : Shape := ⟨2, ![784, 1024]⟩
abbrev S2048x1024 : Shape := ⟨2, ![2048, 1024]⟩
abbrev S2048x256 : Shape := ⟨2, ![2048, 256]⟩
abbrev S2048x512 : Shape := ⟨2, ![2048, 512]⟩
abbrev S128x2048 : Shape := ⟨2, ![128, 2048]⟩
abbrev S128x1 : Shape := ⟨2, ![128, 1]⟩
abbrev S8192x10 : Shape := ⟨2, ![8192, 10]⟩

abbrev nBuf : Space → Nat
  | .hbm => 15
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S784x4096, .bf16⟩
  | .hbm, ⟨2, _⟩ => ⟨S1x1024, .f32⟩
  | .hbm, ⟨3, _⟩ => ⟨S1024x1024, .bf16⟩
  | .hbm, ⟨4, _⟩ => ⟨S1x256, .f32⟩
  | .hbm, ⟨5, _⟩ => ⟨S256x512, .bf16⟩
  | .hbm, ⟨6, _⟩ => ⟨S1x512, .f32⟩
  | .hbm, ⟨7, _⟩ => ⟨S512x256, .bf16⟩
  | .hbm, ⟨8, _⟩ => ⟨S1x256, .f32⟩
  | .hbm, ⟨9, _⟩ => ⟨S256x128, .bf16⟩
  | .hbm, ⟨10, _⟩ => ⟨S1x128, .f32⟩
  | .hbm, ⟨11, _⟩ => ⟨S1x28x28x8192, .f32⟩
  | .hbm, ⟨12, _⟩ => ⟨S784x64x128, .f32⟩
  | .hbm, ⟨13, _⟩ => ⟨S10x8192, .f32⟩
  | .hbm, ⟨14, _⟩ => ⟨S8192x10, .f32⟩
  | .local _ .vmem, ⟨0, _⟩ => ⟨S784x16x128, .f32⟩
  | .local _ .vmem, ⟨1, _⟩ => ⟨S784x16x128, .f32⟩
  | .local _ .vmem, ⟨2, _⟩ => ⟨S784x4096, .bf16⟩
  | .local _ .vmem, ⟨3, _⟩ => ⟨S1x1024, .f32⟩
  | .local _ .vmem, ⟨4, _⟩ => ⟨S1024x1024, .bf16⟩
  | .local _ .vmem, ⟨5, _⟩ => ⟨S1x256, .f32⟩
  | .local _ .vmem, ⟨6, _⟩ => ⟨S256x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S10x2048, .f32⟩
  | .local _ .vmem, ⟨13, _⟩ => ⟨S10x2048, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S784x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S8192x1x28x28_S1x28x28x8192_1_2_3_0 : S8192x1x28x28.Transposes [1, 2, 3, 0] S1x28x28x8192
  shapeCasts_S1x28x28x8192_S784x64x128 : S1x28x28x8192.ShapeCasts S784x64x128
  inb_S784x16x128_S784x16x128_0_0_0 : ∀ a, (![0, 0, 0] : Fin 3 → Nat) a + S784x16x128.size a ≤ S784x16x128.size a
  h_S784x16x128 : 0 < S784x16x128.numel
  shapeCasts_S784x16x128_S784x16x128 : S784x16x128.ShapeCasts S784x16x128
  bitsLt_bf16_f32 : FTy.bits .bf16 < FTy.bits .f32
  shapeCasts_S784x16x128_S784x2048 : S784x16x128.ShapeCasts S784x2048
  inb_S784x4096_S784x1024_0_0 : ∀ a, (![0, 0] : Fin 2 → Nat) a + S784x1024.size a ≤ S784x4096.size a
  h_S784x1024 : 0 < S784x1024.numel
  inb_S784x4096_S784x1024_0_1024 : ∀ a, (![0, 1024] : Fin 2 → Nat) a + S784x1024.size a ≤ S784x4096.size a
  inb_S784x4096_S784x1024_0_2048 : ∀ a, (![0, 2048] : Fin 2 → Nat) a + S784x1024.size a ≤ S784x4096.size a
  inb_S784x4096_S784x1024_0_3072 : ∀ a, (![0, 3072] : Fin 2 → Nat) a + S784x1024.size a ≤ S784x4096.size a
  inb_S1x1024_S1x1024_0_0 : ∀ a, (![0, 0] : Fin 2 → Nat) a + S1x1024.size a ≤ S1x1024.size a
  h_S1x1024 : 0 < S1x1024.numel
  broadcasts_S1x1024_S2048x1024 : S1x1024.Broadcasts S2048x1024
  inb_S1024x1024_S1024x1024_0_0 : ∀ a, (![0, 0] : Fin 2 → Nat) a + S1024x1024.size a ≤ S1024x1024.size a
  h_S1024x1024 : 0 < S1024x1024.numel
  slices_S2048x1024_o0_0_S2048x256 : S2048x1024.Slices ![0, 0] S2048x256
  slices_S2048x1024_o0_256_S2048x256 : S2048x1024.Slices ![0, 256] S2048x256
  slices_S2048x1024_o0_512_S2048x256 : S2048x1024.Slices ![0, 512] S2048x256
  slices_S2048x1024_o0_768_S2048x256 : S2048x1024.Slices ![0, 768] S2048x256
  inb_S1x256_S1x256_0_0 : ∀ a, (![0, 0] : Fin 2 → Nat) a + S1x256.size a ≤ S1x256.size a
  h_S1x256 : 0 < S1x256.numel
  broadcasts_S1x256_S2048x256 : S1x256.Broadcasts S2048x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S2048x512 : S1x512.Broadcasts S2048x512
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  broadcasts_S128x1_S128x2048 : S128x1.Broadcasts S128x2048
  slices_S128x2048_o0_0_S10x2048 : S128x2048.Slices ![0, 0] S10x2048
  inb_S10x2048_S10x2048_0_0 : ∀ a, (![0, 0] : Fin 2 → Nat) a + S10x2048.size a ≤ S10x2048.size a
  h_S10x2048 : 0 < S10x2048.numel
  transposes_S10x8192_S8192x10_1_0 : S10x8192.Transposes [1, 0] S8192x10
  dot_S784x2048_S784x1024_S2048x1024_0_0_1_1_n_n_wf : DotDims.WF S784x2048 S784x1024 S2048x1024 [0] [0] [1] [1] [] []
  dot_S2048x1024_S1024x1024_S2048x1024_1_0_0_1_n_n_wf : DotDims.WF S2048x1024 S1024x1024 S2048x1024 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S256x128_S2048x256_S128x2048_0_1_1_0_n_n_wf : DotDims.WF S256x128 S2048x256 S128x2048 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x16x128.size a ≤ S784x64x128.size a
  hwx0_0 : ∀ i : grid0.Coords, EltTy.bits .f32 = 32 ∨ (Rect.block (s := S784x64x128) S784x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x4096.size a ≤ S784x4096.size a
  hwx0_1 : ∀ i : grid0.Coords, EltTy.bits .bf16 = 32 ∨ (Rect.block (s := S784x4096) S784x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10x2048.size a ≤ S10x8192.size a
  hwx0_11 : ∀ i : grid0.Coords, EltTy.bits .f32 = 32 ∨ (Rect.block (s := S10x8192) S10x2048.size (cc0_transform_11 i) (hinb0_11 i)).WholeWords (EltTy.packing .f32)

variable [Facts₀]

def dot_S784x2048_S784x1024_S2048x1024_0_0_1_1_n_n : DotDims S784x2048 S784x1024 S2048x1024 where
  lhsContracting := [0]
  rhsContracting := [0]
  lhsNonContracting := [1]
  rhsNonContracting := [1]
  lhsBatch := []
  rhsBatch := []
  wf := dot_S784x2048_S784x1024_S2048x1024_0_0_1_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S256x128_S2048x256_S128x2048_0_1_1_0_n_n : DotDims S256x128 S2048x256 S128x2048 where
  lhsContracting := [0]
  rhsContracting := [1]
  lhsNonContracting := [1]
  rhsNonContracting := [0]
  lhsBatch := []
  rhsBatch := []
  wf := dot_S256x128_S2048x256_S128x2048_0_1_1_0_n_n_wf

abbrev win0_0 : Pipeline.Window sig grid0 :=
  Pipeline.Window.ofSpec (Memref.whole main_v1) S784x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S10x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S784x4096 : Shape := ⟨2, ![784, 4096]⟩
abbrev S1x1024 : Shape := ⟨2, ![1, 1024]⟩
abbrev S1024x1024 : Shape := ⟨2, ![1024, 1024]⟩
abbrev S1x256 : Shape := ⟨2, ![1, 256]⟩
abbrev S256x512 : Shape := ⟨2, ![256, 512]⟩
abbrev S1x512 : Shape := ⟨2, ![1, 512]⟩
abbrev S512x256 : Shape := ⟨2, ![512, 256]⟩
abbrev S256x128 : Shape := ⟨2, ![256, 128]⟩
abbrev S1x128 : Shape := ⟨2, ![1, 128]⟩
abbrev S8192x784 : Shape := ⟨2, ![8192, 784]⟩
abbrev S8192x128 : Shape := ⟨2, ![8192, 128]⟩
abbrev S512x784 : Shape := ⟨2, ![512, 784]⟩
abbrev S512x128 : Shape := ⟨2, ![512, 128]⟩
abbrev S512x4096 : Shape := ⟨2, ![512, 4096]⟩
abbrev S512x1024 : Shape := ⟨2, ![512, 1024]⟩
abbrev S512x512 : Shape := ⟨2, ![512, 512]⟩
abbrev S8192x10 : Shape := ⟨2, ![8192, 10]⟩

abbrev nBuf : Space → Nat
  | .hbm => 15
  | .vmem => 14
  | .smem => 0
  | _ => 0

abbrev bufTy : (tb : Table) → Fin (tcTables nBuf tb) → BufTy
  | .hbm, ⟨0, _⟩ => ⟨S8192x1x28x28, .f32⟩
  | .hbm, ⟨1, _⟩ => ⟨S784x4096, .bf16⟩
  | .hbm, ⟨2, _⟩ => ⟨S1x1024, .f32⟩
  | .hbm, ⟨3, _⟩ => ⟨S1024x1024, .bf16⟩
  | .hbm, ⟨4, _⟩ => ⟨S1x256, .f32⟩
  | .hbm, ⟨5, _⟩ => ⟨S256x512, .bf16⟩
  | .hbm, ⟨6, _⟩ => ⟨S1x512, .f32⟩
  | .hbm, ⟨7, _⟩ => ⟨S512x256, .bf16⟩
  | .hbm, ⟨8, _⟩ => ⟨S1x256, .f32⟩
  | .hbm, ⟨9, _⟩ => ⟨S256x128, .bf16⟩
  | .hbm, ⟨10, _⟩ => ⟨S1x128, .f32⟩
  | .hbm, ⟨11, _⟩ => ⟨S8192x784, .f32⟩
  | .hbm, ⟨12, _⟩ => ⟨S8192x784, .bf16⟩
  | .hbm, ⟨13, _⟩ => ⟨S8192x128, .f32⟩
  | .hbm, ⟨14, _⟩ => ⟨S8192x10, .f32⟩
  | .local _ .vmem, ⟨0, _⟩ => ⟨S512x784, .bf16⟩
  | .local _ .vmem, ⟨1, _⟩ => ⟨S512x784, .bf16⟩
  | .local _ .vmem, ⟨2, _⟩ => ⟨S784x4096, .bf16⟩
  | .local _ .vmem, ⟨3, _⟩ => ⟨S1x1024, .f32⟩
  | .local _ .vmem, ⟨4, _⟩ => ⟨S1024x1024, .bf16⟩
  | .local _ .vmem, ⟨5, _⟩ => ⟨S1x256, .f32⟩
  | .local _ .vmem, ⟨6, _⟩ => ⟨S256x512, .bf16⟩
  | .local _ .vmem, ⟨7, _⟩ => ⟨S1x512, .f32⟩
  | .local _ .vmem, ⟨8, _⟩ => ⟨S512x256, .bf16⟩
  | .local _ .vmem, ⟨9, _⟩ => ⟨S1x256, .f32⟩
  | .local _ .vmem, ⟨10, _⟩ => ⟨S256x128, .bf16⟩
  | .local _ .vmem, ⟨11, _⟩ => ⟨S1x128, .f32⟩
  | .local _ .vmem, ⟨12, _⟩ => ⟨S512x128, .f32⟩
  | .local _ .vmem, ⟨13, _⟩ => ⟨S512x128, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x784 : S8192x1x28x28.ShapeCasts S8192x784
  bitsLt_bf16_f32 : FTy.bits .bf16 < FTy.bits .f32
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S784x4096_S784x4096_0_0 : ∀ a, (![0, 0] : Fin 2 → Nat) a + S784x4096.size a ≤ S784x4096.size a
  h_S784x4096 : 0 < S784x4096.numel
  slices_S512x4096_o0_0_S512x1024 : S512x4096.Slices ![0, 0] S512x1024
  slices_S512x4096_o0_1024_S512x1024 : S512x4096.Slices ![0, 1024] S512x1024
  slices_S512x4096_o0_2048_S512x1024 : S512x4096.Slices ![0, 2048] S512x1024
  slices_S512x4096_o0_3072_S512x1024 : S512x4096.Slices ![0, 3072] S512x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  inb_S1x256_S1x256_0_0 : ∀ a, (![0, 0] : Fin 2 → Nat) a + S1x256.size a ≤ S1x256.size a
  h_S1x256 : 0 < S1x256.numel
  broadcasts_S1x256_S512x256 : S1x256.Broadcasts S512x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  broadcasts_S1x512_S512x512 : S1x512.Broadcasts S512x512
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S8192x128_S8192x10_0_0 : S8192x128.Slices ![0, 0] S8192x10
  dot_S512x784_S784x4096_S512x4096_1_0_0_1_n_n_wf : DotDims.WF S512x784 S784x4096 S512x4096 [1] [0] [0] [1] [] []
  dot_S512x1024_S1024x1024_S512x1024_1_0_0_1_n_n_wf : DotDims.WF S512x1024 S1024x1024 S512x1024 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .bf16 = 32 ∨ (Rect.block (s := S8192x784) S512x784.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x4096.size a ≤ S784x4096.size a
  hwx0_1 : ∀ i : grid0.Coords, EltTy.bits .bf16 = 32 ∨ (Rect.block (s := S784x4096) S784x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .bf16 = 32 ∨ (Rect.block (s := S256x512) S256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .bf16 = 32 ∨ (Rect.block (s := S256x128) S256x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x128.size a ≤ S8192x128.size a
  hwx0_11 : ∀ i : grid0.Coords, EltTy.bits .f32 = 32 ∨ (Rect.block (s := S8192x128) S512x128.size (cc0_transform_11 i) (hinb0_11 i)).WholeWords (EltTy.packing .f32)

variable [Facts₀]

def dot_S512x784_S784x4096_S512x4096_1_0_0_1_n_n : DotDims S512x784 S784x4096 S512x4096 where
  lhsContracting := [1]
  rhsContracting := [0]
  lhsNonContracting := [0]
  rhsNonContracting := [1]
  lhsBatch := []
  rhsBatch := []
  wf := dot_S512x784_S784x4096_S512x4096_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v1) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S512x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Spec.lean ====
/-
  The network both programs compute, one input row at a time.

  An input row `x` of 784 numbers passes through two pooled stages and three dense layers. A pooled stage multiplies the
  row into a matrix whose columns come in four groups (the four positions of a 2×2 pooling window), takes the maximum
  over the four groups column by column, adds a bias row and rectifies:
      h[j] = max( max(max(d[j], d[m + j]), max(d[2m + j], d[3m + j])) + b[j], z ),   d = x · T.
  The dense layers are `dense` and `relu` of the row calculus. Everything is over the extended reals and uses only
  sums, products and maxima of the entries, so it is the same function wherever the input row is stored.
-/
import proofs.«131907_g2000202601506787_pallasbulk_1052_41_alg».proof.Proof.LibRowLayers

noncomputable section

namespace Cert.LeNetSpec

open Idealize.ShloMosaic Idealize.ShloMosaic.ValueIdx Cert.RowLayers

/-- Entries `o, …, o + m - 1` of a row. -/
def cols {α : Type} {n : ℕ} (o m : ℕ) (h : o + m ≤ n) (f : Fin n → α) : Fin m → α :=
  fun j => f ⟨o + j.val, Nat.lt_of_lt_of_le (Nat.add_lt_add_left j.isLt o) h⟩

/-- A row times a matrix: entry `j` is `∑ k, h k · w[k, j]`. -/
def lin {K J : ℕ} (h : Fin K → EReal) (w : (⟨2, ![K, J]⟩ : Shape).Idx → EReal) : Fin J → EReal :=
  fun j => ∑ k : Fin K, h k * w (ix2 k j)

/-- The maximum of four rows, paired as a tree: `max (max f0 f1) (max f2 f3)`. -/
def max4 {m : ℕ} (f0 f1 f2 f3 : Fin m → EReal) : Fin m → EReal :=
  fun j => max (max (f0 j) (f1 j)) (max (f2 j) (f3 j))

/-- A window of columns of a row-times-matrix product is the row times those columns of the matrix. -/
theorem cols_lin {K J : ℕ} (o m : ℕ) (hm : o + m ≤ J) (h : Fin K → EReal) (w : (⟨2, ![K, J]⟩ : Shape).Idx → EReal) :
    cols o m hm (lin h w) = fun j => ∑ k : Fin K, h k * w (ix2 k ⟨o + j.val, Nat.lt_of_lt_of_le (Nat.add_lt_add_left j.isLt o) hm⟩) := rfl

/-- A dense layer is the row times the matrix, plus the bias. -/
theorem dense_eq_lin {K J : ℕ} (h : Fin K → EReal) (w : (⟨2, ![K, J]⟩ : Shape).Idx → EReal) (b : Fin J → EReal) :
    dense h w b = fun j => lin h w j + b j := rfl

/-- The maximum of two arrays, on a row. -/
theorem rowOf_maximumf {a b : ℕ} {φ : FTy} (x y : FVec Ideal ⟨2, ![a, b]⟩ φ) (p : Fin a) :
    rowOf (maximumf x y) p = fun j => max (rowOf x p j) (rowOf y p j) := rfl

/-- The first pooled stage: 784 inputs, four groups of 1024 columns. -/
def stage1 (z : EReal) (x : Fin 784 → EReal) (t1 : (⟨2, ![784, 4096]⟩ : Shape).Idx → EReal) (b1 : Fin 1024 → EReal) : Fin 1024 → EReal :=
  relu z fun j => max4 (cols 0 1024 (by decide) (lin x t1)) (cols 1024 1024 (by decide) (lin x t1))
    (cols 2048 1024 (by decide) (lin x t1)) (cols 3072 1024 (by decide) (lin x t1)) j + b1 j

/-- The second pooled stage: 1024 inputs, four groups of 256 columns. -/
def stage2 (z : EReal) (h : Fin 1024 → EReal) (t2 : (⟨2, ![1024, 1024]⟩ : Shape).Idx → EReal) (b2 : Fin 256 → EReal) : Fin 256 → EReal :=
  relu z fun j => max4 (cols 0 256 (by decide) (lin h t2)) (cols 256 256 (by decide) (lin h t2))
    (cols 512 256 (by decide) (lin h t2)) (cols 768 256 (by decide) (lin h t2)) j + b2 j

/-- The three dense layers on the pooled features: two rectified, the last one plain. -/
def head (z : EReal) (g : Fin 256 → EReal) (w1 : (⟨2, ![256, 512]⟩ : Shape).Idx → EReal) (fb1 : Fin 512 → EReal)
    (w2 : (⟨2, ![512, 256]⟩ : Shape).Idx → EReal) (fb2 : Fin 256 → EReal)
    (w3 : (⟨2, ![256, 128]⟩ : Shape).Idx → EReal) (fb3 : Fin 128 → EReal) : Fin 128 → EReal :=
  dense (relu z (dense (relu z (dense g w1 fb1)) w2 fb2)) w3 fb3

/-- The whole network on one input row. -/
def net (z : EReal) (x : Fin 784 → EReal) (t1 : (⟨2, ![784, 4096]⟩ : Shape).Idx → EReal) (b1 : Fin 1024 → EReal)
    (t2 : (⟨2, ![1024, 1024]⟩ : Shape).Idx → EReal) (b2 : Fin 256 → EReal)
    (w1 : (⟨2, ![256, 512]⟩ : Shape).Idx → EReal) (fb1 : Fin 512 → EReal)
    (w2 : (⟨2, ![512, 256]⟩ : Shape).Idx → EReal) (fb2 : Fin 256 → EReal)
    (w3 : (⟨2, ![256, 128]⟩ : Shape).Idx → EReal) (fb3 : Fin 128 → EReal) : Fin 128 → EReal :=
  head z (stage2 z (stage1 z x t1 b1) t2 b2) w1 fb1 w2 fb2 w3 fb3

/-- Pixel `k` of image `n` of a batch of one-channel 28×28 images: row `k / 28`, column `k % 28`. -/
def pixelRow (x : (⟨4, ![8192, 1, 28, 28]⟩ : Shape).Idx → EReal) (n : Fin 8192) : Fin 784 → EReal :=
  fun k => x (ix4 n (0 : Fin 1) ⟨k.val / 28, by have := k.isLt; omega⟩ ⟨k.val % 28, Nat.mod_lt _ (by decide)⟩)

/-- The result both programs end with: entry `(n, c)`, `c < 10`, is output `c` of the network on image `n`. -/
def result (z : EReal) (x : (⟨4, ![8192, 1, 28, 28]⟩ : Shape).Idx → EReal)
    (t1 : (⟨2, ![784, 4096]⟩ : Shape).Idx → EReal) (b1 : (⟨2, ![1, 1024]⟩ : Shape).Idx → EReal)
    (t2 : (⟨2, ![1024, 1024]⟩ : Shape).Idx → EReal) (b2 : (⟨2, ![1, 256]⟩ : Shape).Idx → EReal)
    (w1 : (⟨2, ![256, 512]⟩ : Shape).Idx → EReal) (fb1 : (⟨2, ![1, 512]⟩ : Shape).Idx → EReal)
    (w2 : (⟨2, ![512, 256]⟩ : Shape).Idx → EReal) (fb2 : (⟨2, ![1, 256]⟩ : Shape).Idx → EReal)
    (w3 : (⟨2, ![256, 128]⟩ : Shape).Idx → EReal) (fb3 : (⟨2, ![1, 128]⟩ : Shape).Idx → EReal) :
    (⟨2, ![8192, 10]⟩ : Shape).Idx → EReal :=
  fun i => net z (pixelRow x (i 0)) t1 (rowOf b1 0) t2 (rowOf b2 0) w1 (rowOf fb1 0) w2 (rowOf fb2 0) w3 (rowOf fb3 0)
    ⟨(i 1).val, Nat.lt_of_lt_of_le (i 1).isLt (by decide)⟩

end Cert.LeNetSpec

end
-- ==== Proof.LibColumnProducts.lean ====
/-
  Matrix products that contract the LEADING axis of an operand, read entry by entry over the extended reals.

  The usual product of an [a, K] matrix with a [K, b] matrix reads the left operand along its rows. Two other
  arrangements of the same sum occur when an operand is stored transposed: both operands stored with the contracted
  axis first ([K, a] and [K, b]: entry (p, q) is the sum over k of lhs[k, p] · rhs[k, q]), and the left operand stored
  with the contracted axis first while the right one has it last ([K, b] and [a, K], result [b, a]: entry (c, n) is
  the sum over k of lhs[k, c] · rhs[n, k]). Each is stated for dimension numbers that say so (a structure of six
  coordinate facts) and for the device's product into a zero accumulator.
-/
import Idealize.ShloMosaic.PureOps.Ideal
import Idealize.ShloMosaic.PureOps.Ideal.Laws
import Idealize.ShloMosaic.Lib.ValueIdx

noncomputable section

namespace Cert.ColumnProducts

open Idealize.ShloMosaic Idealize.ShloMosaic.ValueIdx

/-! ## Both operands with the contracted axis first -/

section ColsCols
variable {a K b : ℕ} (d : DotDims ⟨2, ![K, a]⟩ ⟨2, ![K, b]⟩ ⟨2, ![a, b]⟩)

/-- The dimension numbers of a `[K, a] × [K, b] → [a, b]` product contract ONE axis, of extent `K`, the leading one of
    both operands: the left operand is read at (contracted position, output row), the right one at (contracted
    position, output column). -/
structure ColsTimesCols : Prop where
  rank : d.contr.rank = 1
  size : d.contr.size ⟨0, by omega⟩ = K
  lhs0 : ∀ (j : (⟨2, ![a, b]⟩ : Shape).Idx) (q : d.contr.Idx), (d.lhsIdx j q 0).val = (q ⟨0, by omega⟩).val
  lhs1 : ∀ (j : (⟨2, ![a, b]⟩ : Shape).Idx) (q : d.contr.Idx), (d.lhsIdx j q 1).val = (j 0).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`. -/
theorem ColsTimesCols.sum_eq (H : ColsTimesCols d) (lhs : (⟨2, ![K, a]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 k p) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 k p := funext fun ax => Fin.ext (by
    match ax with
    | ⟨0, _⟩ => exact (H.lhs0 _ _).trans hk
    | ⟨1, _⟩ => exact H.lhs1 _ _)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Entry `(p, q)` of the device's product into a zero accumulator. -/
theorem ColsTimesCols.matmul_zero_apply {φ₁ φ₂ : FTy} (H : ColsTimesCols d) (prec : Option ContractPrecision)
    (lhs : FVec Ideal ⟨2, ![K, a]⟩ φ₁) (rhs : FVec Ideal ⟨2, ![K, b]⟩ φ₂) (p : Fin a) (q : Fin b) :
    matmul d prec lhs rhs (constant (F := Ideal) ⟨2, ![a, b]⟩ .f32 0x00000000#32) (ix2 p q)
      = ∑ k : Fin K, lhs (ix2 k p) * rhs (ix2 k q) := by
  show FloatOps.matmul d prec lhs rhs (constant (F := Ideal) ⟨2, ![a, b]⟩ .f32 0x00000000#32) (ix2 p q) = _
  rw [Ideal.matmul_constant_zero_apply]
  exact H.sum_eq lhs rhs p q

end ColsCols

/-! ## The left operand with the contracted axis first, the right one with it last -/

section ColsRows
variable {a K b : ℕ} (d : DotDims ⟨2, ![K, b]⟩ ⟨2, ![a, K]⟩ ⟨2, ![b, a]⟩)

/-- The dimension numbers of a `[K, b] × [a, K] → [b, a]` product contract ONE axis, of extent `K`, the leading one of
    the left operand and the trailing one of the right: the left operand is read at (contracted position, output
    row), the right one at (output column, contracted position). -/
structure ColsTimesRows : Prop where
  rank : d.contr.rank = 1
  size : d.contr.size ⟨0, by omega⟩ = K
  lhs0 : ∀ (j : (⟨2, ![b, a]⟩ : Shape).Idx) (q : d.contr.Idx), (d.lhsIdx j q 0).val = (q ⟨0, by omega⟩).val
  lhs1 : ∀ (j : (⟨2, ![b, a]⟩ : Shape).Idx) (q : d.contr.Idx), (d.lhsIdx j q 1).val = (j 0).val
  rhs0 : ∀ (j : (⟨2, ![b, a]⟩ : Shape).Idx) (q : d.contr.Idx), (d.rhsIdx j q 0).val = (j 1).val
  rhs1 : ∀ (j : (⟨2, ![b, a]⟩ : Shape).Idx) (q : d.contr.Idx), (d.rhsIdx j q 1).val = (q ⟨0, by omega⟩).val

variable {d}

/-- The sum over the contraction's index set, re-indexed by the contracted position `k < K`. -/
theorem ColsTimesRows.sum_eq (H : ColsTimesRows d) (lhs : (⟨2, ![K, b]⟩ : Shape).Idx → EReal) (rhs : (⟨2, ![a, K]⟩ : Shape).Idx → EReal)
    (c : Fin b) (n : Fin a) :
    (∑ k : d.contr.Idx, lhs (d.lhsIdx (ix2 c n) k) * rhs (d.rhsIdx (ix2 c n) k)) = ∑ k : Fin K, lhs (ix2 k c) * rhs (ix2 n k) := by
  rw [← Equiv.sum_comp (contrEquiv1 d K H.rank H.size).symm]
  refine Finset.sum_congr rfl fun k _ => ?_
  have hk := contrEquiv1_symm_val d K H.rank H.size k
  have el : d.lhsIdx (ix2 c n) ((contrEquiv1 d K H.rank H.size).symm k) = ix2 k c := funext fun ax => Fin.ext (by
    match ax with
    | ⟨0, _⟩ => exact (H.lhs0 _ _).trans hk
    | ⟨1, _⟩ => exact H.lhs1 _ _)
  have er : d.rhsIdx (ix2 c n) ((contrEquiv1 d K H.rank H.size).symm k) = ix2 n k := funext fun ax => Fin.ext (by
    match ax with
    | ⟨0, _⟩ => exact H.rhs0 _ _
    | ⟨1, _⟩ => exact (H.rhs1 _ _).trans hk)
  rw [el, er]

/-- Entry `(c, n)` of the device's product into a zero accumulator. -/
theorem ColsTimesRows.matmul_zero_apply {φ₁ φ₂ : FTy} (H : ColsTimesRows d) (prec : Option ContractPrecision)
    (lhs : FVec Ideal ⟨2, ![K, b]⟩ φ₁) (rhs : FVec Ideal ⟨2, ![a, K]⟩ φ₂) (c : Fin b) (n : Fin a) :
    matmul d prec lhs rhs (constant (F := Ideal) ⟨2, ![b, a]⟩ .f32 0x00000000#32) (ix2 c n)
      = ∑ k : Fin K, lhs (ix2 k c) * rhs (ix2 n k) := by
  show FloatOps.matmul d prec lhs rhs (constant (F := Ideal) ⟨2, ![b, a]⟩ .f32 0x00000000#32) (ix2 c n) = _
  rw [Ideal.matmul_constant_zero_apply]
  exact H.sum_eq lhs rhs c n

end ColsRows

end Cert.ColumnProducts

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.KernelRows.lean ====
/-
  The kernel's body, read one batch column at a time.

  The body holds a block of 2048 images as a [784, 16, 128] array: pixel k of image n of the block sits at
  (k, n / 128, n % 128). It multiplies that block, contracted over its LEADING axis, into each of the four column groups
  of the first matrix, so row n of each product is the image's pixel row times that group; from there on every
  operation acts on rows, until the last product, which is emitted transposed (outputs on rows, images on columns).
  So entry (c, n) of what the body stores is output c of the network on image n of the block.
-/
import proofs.«131907_g2000202601506787_pallasbulk_1052_41_alg».proof.KernelIdeal
import proofs.«131907_g2000202601506787_pallasbulk_1052_41_alg».proof.Proof.Gen.KernelIdeal
import proofs.«131907_g2000202601506787_pallasbulk_1052_41_alg».proof.Proof.Gen.KernelIdeal.Skeleton
import proofs.«131907_g2000202601506787_pallasbulk_1052_41_alg».proof.Proof.Spec
import proofs.«131907_g2000202601506787_pallasbulk_1052_41_alg».proof.Proof.LibColumnProducts
import proofs.«131907_g2000202601506787_pallasbulk_1052_41_alg».proof.Proof.LibColumnBroadcast
import Idealize.ShloMosaic.Lib.Pipeline.Value
import Idealize.ShloMosaic.Lib.ValueLayout

noncomputable section

namespace Cert.KernelIdeal.Rows

open Idealize.ShloMosaic Idealize.ShloMosaic.ValueIdx
open Cert.RowLayers Cert.ColumnProducts Cert.ColumnBroadcast Cert.LeNetSpec
open Cert.KernelIdeal Cert.KernelIdeal.Gen

/-- The rectifiers' threshold: the float zero. -/
abbrev z0 : EReal := (Scalar.ofBits .f32 0x00000000#32 : Ideal .f32)

/-! ## The five products' dimension numbers -/

theorem dims_first : ColsTimesCols (a := 2048) (K := 784) (b := 1024) dot_S784x2048_S784x1024_S2048x1024_0_0_1_1_n_n where
  rank := rfl
  size := rfl
  lhs0 := fun j q => by simp [DotDims.lhsIdx, dot_S784x2048_S784x1024_S2048x1024_0_0_1_1_n_n]; rfl
  lhs1 := fun j q => by simp [DotDims.lhsIdx, dot_S784x2048_S784x1024_S2048x1024_0_0_1_1_n_n]; rfl
  rhs0 := fun j q => by simp [DotDims.rhsIdx, dot_S784x2048_S784x1024_S2048x1024_0_0_1_1_n_n]; rfl
  rhs1 := fun j q => by simp [DotDims.rhsIdx, dot_S784x2048_S784x1024_S2048x1024_0_0_1_1_n_n]; rfl

theorem dims_second : RowsTimesCols (a := 2048) (K := 1024) (b := 1024) dot_S2048x1024_S1024x1024_S2048x1024_1_0_0_1_n_n where
  rank := rfl
  size := rfl
  lhs0 := fun j q => by simp [DotDims.lhsIdx, dot_S2048x1024_S1024x1024_S2048x1024_1_0_0_1_n_n]; rfl
  lhs1 := fun j q => by simp [DotDims.lhsIdx, dot_S2048x1024_S1024x1024_S2048x1024_1_0_0_1_n_n]; rfl
  rhs0 := fun j q => by simp [DotDims.rhsIdx, dot_S2048x1024_S1024x1024_S2048x1024_1_0_0_1_n_n]; rfl
  rhs1 := fun j q => by simp [DotDims.rhsIdx, dot_S2048x1024_S1024x1024_S2048x1024_1_0_0_1_n_n]; rfl

theorem dims_fc1 : RowsTimesCols (a := 2048) (K := 256) (b := 512) dot_S2048x256_S256x512_S2048x512_1_0_0_1_n_n where
  rank := rfl
  size := rfl
  lhs0 := fun j q => by simp [DotDims.lhsIdx, dot_S2048x256_S256x512_S2048x512_1_0_0_1_n_n]; rfl
  lhs1 := fun j q => by simp [DotDims.lhsIdx, dot_S2048x256_S256x512_S2048x512_1_0_0_1_n_n]; rfl
  rhs0 := fun j q => by simp [DotDims.rhsIdx, dot_S2048x256_S256x512_S2048x512_1_0_0_1_n_n]; rfl
  rhs1 := fun j q => by simp [DotDims.rhsIdx, dot_S2048x256_S256x512_S2048x512_1_0_0_1_n_n]; rfl

theorem dims_fc2 : RowsTimesCols (a := 2048) (K := 512) (b := 256) dot_S2048x512_S512x256_S2048x256_1_0_0_1_n_n where
  rank := rfl
  size := rfl
  lhs0 := fun j q => by simp [DotDims.lhsIdx, dot_S2048x512_S512x256_S2048x256_1_0_0_1_n_n]; rfl
  lhs1 := fun j q => by simp [DotDims.lhsIdx, dot_S2048x512_S512x256_S2048x256_1_0_0_1_n_n]; rfl
  rhs0 := fun j q => by simp [DotDims.rhsIdx, dot_S2048x512_S512x256_S2048x256_1_0_0_1_n_n]; rfl
  rhs1 := fun j q => by simp [DotDims.rhsIdx, dot_S2048x512_S512x256_S2048x256_1_0_0_1_n_n]; rfl

theorem dims_fc3 : ColsTimesRows (a := 2048) (K := 256) (b := 128) dot_S256x128_S2048x256_S128x2048_0_1_1_0_n_n where
  rank := rfl
  size := rfl
  lhs0 := fun j q => by simp [DotDims.lhsIdx, dot_S256x128_S2048x256_S128x2048_0_1_1_0_n_n]; rfl
  lhs1 := fun j q => by simp [DotDims.lhsIdx, dot_S256x128_S2048x256_S128x2048_0_1_1_0_n_n]; rfl
  rhs0 := fun j q => by simp [DotDims.rhsIdx, dot_S256x128_S2048x256_S128x2048_0_1_1_0_n_n]; rfl
  rhs1 := fun j q => by simp [DotDims.rhsIdx, dot_S256x128_S2048x256_S128x2048_0_1_1_0_n_n]; rfl

/-! ## The input block, one image at a time -/

/-- Image `n` of a [784, 16, 128] block: pixel `k` sits at `(k, n / 128, n % 128)`. -/
def blockCol (x0 : (⟨3, ![784, 16, 128]⟩ : Shape).Idx → EReal) (n : Fin 2048) : Fin 784 → EReal :=
  fun k => x0 (ix3 k (⟨n.val / 128, by have := n.isLt; omega⟩ : Fin 16) (⟨n.val % 128, Nat.mod_lt _ (by decide)⟩ : Fin 128))

/-- The block viewed [784, 2048] (its two trailing axes merged, the float format changed) reads, at `(k, n)`, pixel
    `k` of image `n`. -/
theorem merged_apply (x0 : Vec Ideal S784x16x128 .f32) (k : Fin 784) (n : Fin 2048) :
    (shapeCast S784x2048 (truncf .bf16 (shapeCast S784x16x128 x0 shapeCasts_S784x16x128_S784x16x128 : FVec Ideal S784x16x128 .f32) bitsLt_bf16_f32 : FVec Ideal S784x16x128 .bf16)
      shapeCasts_S784x16x128_S784x2048 : FVec Ideal S784x2048 .bf16) (ix2 k n) = blockCol x0 n k := by
  rw [shapeCast_apply _ _ (ix2 k n) (ix3 k (⟨n.val / 128, by have := n.isLt; omega⟩ : Fin 16) (⟨n.val % 128, Nat.mod_lt _ (by decide)⟩ : Fin 128)) (by
    rw [Shape.rowMajor_val_three, Shape.rowMajor_val_two]
    show (k.val * 16 + n.val / 128) * 128 + n.val % 128 = k.val * 2048 + n.val
    omega)]
  rw [truncf_apply, shapeCast_self]
  rfl

/-- Row `n` of the block's product, over its leading axis, with a [784, b] matrix: the image's pixel row times the matrix. -/
theorem rowOf_firstProduct (x0 : Vec Ideal S784x16x128 .f32) (w : FVec Ideal S784x1024 .bf16) (n : Fin 2048) :
    rowOf (matmul dot_S784x2048_S784x1024_S2048x1024_0_0_1_1_n_n none
      (shapeCast S784x2048 (truncf .bf16 (shapeCast S784x16x128 x0 shapeCasts_S784x16x128_S784x16x128 : FVec Ideal S784x16x128 .f32) bitsLt_bf16_f32 : FVec Ideal S784x16x128 .bf16)
        shapeCasts_S784x16x128_S784x2048 : FVec Ideal S784x2048 .bf16) w (constant (F := Ideal) S2048x1024 .f32 0x00000000#32)) n
      = lin (blockCol x0 n) w := by
  funext j
  rw [rowOf_apply, dims_first.matmul_zero_apply]
  exact Finset.sum_congr rfl fun k _ => by rw [merged_apply]

/-- A load of `m` columns from column `o` of a [K, n] buffer reads, at `(k, j)`, the buffer at `(k, o + j)`. -/
theorem ld_cols_apply {K n m : ℕ} {Val : EltTy → Type} {e : EltTy} (o : ℕ) (X : (⟨2, ![K, n]⟩ : Shape).Idx → Val e)
    (inb : ∀ a, (![0, o] : Fin 2 → Nat) a + (⟨2, ![K, m]⟩ : Shape).size a ≤ (⟨2, ![K, n]⟩ : Shape).size a) (k : Fin K) (j : Fin m) :
    View.ld X (Rect.unit (s := ⟨2, ![K, n]⟩) ![0, o] (⟨2, ![K, m]⟩ : Shape).size inb) (ix2 k j)
      = X (ix2 k ⟨o + j.val, Nat.lt_of_lt_of_le (Nat.add_lt_add_left j.isLt o) (inb 1)⟩) := by
  show X ((Rect.unit (s := ⟨2, ![K, n]⟩) ![0, o] (⟨2, ![K, m]⟩ : Shape).size inb).emb (ix2 k j)) = _
  refine congrArg X (funext fun a => Fin.ext ?_)
  match a with
  | ⟨0, _⟩ => show 0 + 1 * k.val = k.val; omega
  | ⟨1, _⟩ => show o + 1 * j.val = o + j.val; omega

/-- The pixel row times a loaded group of columns is that window of the row times the whole matrix. -/
theorem lin_ld_cols {K n m : ℕ} (o : ℕ) (h : Fin K → EReal) (X : Vec Ideal ⟨2, ![K, n]⟩ .bf16)
    (inb : ∀ a, (![0, o] : Fin 2 → Nat) a + (⟨2, ![K, m]⟩ : Shape).size a ≤ (⟨2, ![K, n]⟩ : Shape).size a) (hm : o + m ≤ n) :
    lin h (View.ld X (Rect.unit (s := ⟨2, ![K, n]⟩) ![0, o] (⟨2, ![K, m]⟩ : Shape).size inb)) = cols o m hm (lin h X) := by
  funext j
  show (∑ k : Fin K, h k * View.ld X (Rect.unit (s := ⟨2, ![K, n]⟩) ![0, o] (⟨2, ![K, m]⟩ : Shape).size inb) (ix2 k j))
    = ∑ k : Fin K, h k * X (ix2 k ⟨o + j.val, Nat.lt_of_lt_of_le (Nat.add_lt_add_left j.isLt o) hm⟩)
  exact Finset.sum_congr rfl fun k _ => by rw [ld_cols_apply]

/-! ## The body's two payloads on a row -/

/-- The first pooled stage of image `n` of the block, from the four loaded column groups. -/
def hidden1 (x0 : Vec Ideal S784x16x128 .f32) (v4 v6 v9 v11 : FVec Ideal S784x1024 .bf16) (v15 : FVec Ideal S1x1024 .f32) (n : Fin 2048) : Fin 1024 → EReal :=
  relu z0 fun j => max4 (lin (blockCol x0 n) v4) (lin (blockCol x0 n) v6) (lin (blockCol x0 n) v9) (lin (blockCol x0 n) v11) j + rowOf v15 0 j

/-- Row `n` of the first payload (both pooled stages): the second pooled stage of the first. -/
theorem pay2_row (x0 : Vec Ideal S784x16x128 .f32) (v4 v6 v9 v11 : Vec Ideal S784x1024 .bf16) (v15 : Vec Ideal S1x1024 .f32)
    (v21 : Vec Ideal S1024x1024 .bf16) (v30 : Vec Ideal S1x256 .f32) (n : Fin 2048) :
    rowOf (k0_pay2 (F := Ideal) x0 v4 v6 v9 v11 v15 v21 v30) n
      = stage2 z0 (hidden1 x0 v4 v6 v9 v11 v15 n) v21 (rowOf v30 0) := by
  unfold k0_pay2
  dsimp only
  rw [rowOf_maximumf_splat, rowOf_addf, rowOf_broadcastTo, rowOf_maximumf, rowOf_maximumf, rowOf_maximumf,
    rowOf_slice_cols, rowOf_slice_cols, rowOf_slice_cols, rowOf_slice_cols, rowOf_matmul_zero dims_second, rowOf_truncf,
    rowOf_maximumf_splat, rowOf_addf, rowOf_broadcastTo, rowOf_maximumf, rowOf_maximumf, rowOf_maximumf,
    rowOf_firstProduct, rowOf_firstProduct, rowOf_firstProduct, rowOf_firstProduct]
  rfl

/-- The last dense layer as the body emits it — the weights' columns against the features' rows, outputs on rows and images
    on columns, the bias column broadcast along the images, the first ten rows kept — reads, at `(c, n)`, output `c` of the
    dense layer on row `n` of the features (the two factors of each product swapped). -/
theorem lastLayer_entry (g : FVec Ideal S2048x256 .bf16) (v52 : FVec Ideal S256x128 .bf16) (v54 : FVec Ideal S1x128 .f32) (c : Fin 10) (n : Fin 2048) :
    extractStridedSlice S10x2048 ![0, 0]
      (addf (matmul dot_S256x128_S2048x256_S128x2048_0_1_1_0_n_n none v52 g (constant (F := Ideal) S128x2048 .f32 0x00000000#32))
        (broadcastTo S128x2048 (transpose S128x1 [1, 0] v54 transposes_S1x128_p1_0_S128x1) broadcasts_S128x1_S128x2048))
      slices_S128x2048_o0_0_S10x2048 (ix2 c n)
      = dense (rowOf g n) v52 (rowOf v54 0) ⟨c.val, by have := c.isLt; omega⟩ := by
  rw [slice2_axis0_apply 0 _ _ c n (⟨c.val, by have := c.isLt; omega⟩ : Fin 128) (Nat.zero_add _).symm,
    addf_apply, dims_fc3.matmul_zero_apply, broadcastTo_a1_ab_apply, transpose_ix2_apply, dense_eq_lin]
  exact congrArg (· + _) (Finset.sum_congr rfl fun k _ => mul_comm _ _)

/-- Entry `(c, n)` of the second payload (the three dense layers, the last one emitted transposed, its first ten rows
    kept): output `c` of the dense layers on row `n` of the pooled features. -/
theorem pay1_entry (v34 : FVec Ideal S2048x256 .f32) (v36 : Vec Ideal S256x512 .bf16) (v38 : Vec Ideal S1x512 .f32) (v44 : Vec Ideal S512x256 .bf16)
    (v46 : Vec Ideal S1x256 .f32) (v52 : Vec Ideal S256x128 .bf16) (v54 : Vec Ideal S1x128 .f32) (c : Fin 10) (n : Fin 2048) :
    k0_pay1 (F := Ideal) v34 v36 v38 v44 v46 v52 v54 (ix2 c n)
      = head z0 (rowOf v34 n) v36 (rowOf v38 0) v44 (rowOf v46 0) v52 (rowOf v54 0) ⟨c.val, by have := c.isLt; omega⟩ := by
  unfold k0_pay1
  dsimp only
  rw [lastLayer_entry, rowOf_truncf, rowOf_maximumf_splat, rowOf_dense_device dims_fc2, rowOf_truncf, rowOf_maximumf_splat,
    rowOf_dense_device dims_fc1, rowOf_truncf]
  rfl

/-- What the body stores, entry `(c, n)`: output `c` of the network on image `n` of the block. -/
theorem body_entry (x0 : Vec Ideal S784x16x128 .f32) (x1 : Vec Ideal S784x4096 .bf16) (x2 : Vec Ideal S1x1024 .f32) (x3 : Vec Ideal S1024x1024 .bf16)
    (x4 : Vec Ideal S1x256 .f32) (x5 : Vec Ideal S256x512 .bf16) (x6 : Vec Ideal S1x512 .f32) (x7 : Vec Ideal S512x256 .bf16) (x8 : Vec Ideal S1x256 .f32)
    (x9 : Vec Ideal S256x128 .bf16) (x10 : Vec Ideal S1x128 .f32) (c : Fin 10) (n : Fin 2048) :
    k0_pay1 (F := Ideal) (k0_pay2 x0
        (View.ld x1 (Rect.unit (s := S784x4096) ![0, 0] S784x1024.size inb_S784x4096_S784x1024_0_0))
        (View.ld x1 (Rect.unit (s := S784x4096) ![0, 1024] S784x1024.size inb_S784x4096_S784x1024_0_1024))
        (View.ld x1 (Rect.unit (s := S784x4096) ![0, 2048] S784x1024.size inb_S784x4096_S784x1024_0_2048))
        (View.ld x1 (Rect.unit (s := S784x4096) ![0, 3072] S784x1024.size inb_S784x4096_S784x1024_0_3072))
        x2 x3 x4) x5 x6 x7 x8 x9 x10 (ix2 c n)
      = net z0 (blockCol x0 n) x1 (rowOf x2 0) x3 (rowOf x4 0) x5 (rowOf x6 0) x7 (rowOf x8 0) x9 (rowOf x10 0) ⟨c.val, by have := c.isLt; omega⟩ := by
  rw [pay1_entry, pay2_row]
  unfold hidden1 net stage1
  rw [lin_ld_cols 0 _ x1 _ (by decide), lin_ld_cols 1024 _ x1 _ (by decide), lin_ld_cols 2048 _ x1 _ (by decide), lin_ld_cols 3072 _ x1 _ (by decide)]

end Cert.KernelIdeal.Rows

end
-- ==== Proof.KernelValue.lean ====
/-
  The kernel's run, read as values.

  Before the region the host re-lays the batch: images go to the LAST axis (a transpose), then the 784 pixels of an image
  are merged into one leading axis and the 8192 images split into 64 groups of 128. The region's four grid points each take
  16 of those groups (2048 images) and write a [10, 2048] block of a [10, 8192] array; after the region the host transposes
  that array. So the final [8192, 10] array holds, at (n, c), output c of the network on image n.
-/
import proofs.«131907_g2000202601506787_pallasbulk_1052_41_alg».proof.Defs
import proofs.«131907_g2000202601506787_pallasbulk_1052_41_alg».proof.Proof.Gen.KernelIdeal.Frame
import proofs.«131907_g2000202601506787_pallasbulk_1052_41_alg».proof.Proof.KernelRows
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Idealize.ShloMosaic.ValueIdx Cert.RowLayers Cert.LeNetSpec
open Cert.KernelIdeal Cert.KernelIdeal.Gen Cert.KernelIdeal.Rows

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The host's re-layout before the region -/

/-- The array the region's first window reads is the batch transposed (images last) and reshaped. -/
theorem V_v1 (c : Dev nD) :
    (V m c main_v1 : S784x64x128.Idx → Elt Ideal .f32)
      = shapeCast S784x64x128 (transpose S1x28x28x8192 [1, 2, 3, 0] (m ((c : Thread nD τ).loc main_arg0)) transposes_S8192x1x28x28_S1x28x28x8192_1_2_3_0)
          shapeCasts_S1x28x28x8192_S784x64x128 := by
  show StableHlo.after hostOps0 (fun b => m (c, b)) (Proc.devRef .tc main_v1) = _
  after_results
  rfl

/-- It reads, at `(k, A, B)`, pixel `k` of image `A · 128 + B`. -/
theorem v1_apply (c : Dev nD) (k : Fin 784) (A : Fin 64) (B : Fin 128) (n : Fin 8192) (hn : n.val = A.val * 128 + B.val) :
    (V m c main_v1 : S784x64x128.Idx → Elt Ideal .f32) (ix3 k A B) = pixelRow (m ((c : Thread nD τ).loc main_arg0)) n k := by
  rw [V_v1]
  rw [shapeCast_apply _ _ (ix3 k A B) (ix4 (0 : Fin 1) (⟨k.val / 28, by have := k.isLt; omega⟩ : Fin 28) (⟨k.val % 28, Nat.mod_lt _ (by decide)⟩ : Fin 28) n) (by
    rw [Shape.rowMajor_val_four, Shape.rowMajor_val_three]
    show ((0 * 28 + k.val / 28) * 28 + k.val % 28) * 8192 + n.val = (k.val * 64 + A.val) * 128 + B.val
    omega)]
  exact transpose_apply [1, 2, 3, 0] _ _ _ (ix4 n (0 : Fin 1) (⟨k.val / 28, by have := k.isLt; omega⟩ : Fin 28) (⟨k.val % 28, Nat.mod_lt _ (by decide)⟩ : Fin 28))
    fun b => match b with | ⟨0, _⟩ => rfl | ⟨1, _⟩ => rfl | ⟨2, _⟩ => rfl | ⟨3, _⟩ => rfl

/-! ## The windows' blocks -/

/-- The first window walks the middle axis: point `t` takes groups `16 t … 16 t + 15`. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)

/-- Image `q` of point `t`'s block is image `2048 t + q` of the batch. -/
theorem blockCol_iblk0 (c : Dev nD) (t : Fin cfg0.N) (q : Fin 2048) (n : Fin 8192) (hn : n.val = 2048 * t.val + q.val) :
    blockCol (iblk m c 0 t) q = pixelRow (m ((c : Thread nD τ).loc main_arg0)) n := by
  have hi := idx0 t
  funext k
  unfold blockCol iblk
  rw [View.read_apply]
  show V m c main_v1 _ = _
  refine Eq.trans (congrArg _ (funext fun a => Fin.ext ?_)) (v1_apply m c k (⟨16 * t.val + q.val / 128, by have := t.isLt; have := q.isLt; have hN : cfg0.N = 4 := N_0; omega⟩ : Fin 64) (⟨q.val % 128, Nat.mod_lt _ (by decide)⟩ : Fin 128) n (by show n.val = (16 * t.val + q.val / 128) * 128 + q.val % 128; omega))
  match a with
  | ⟨0, _⟩ => show win0_0.index t (0 : Fin 3) * 784 + 1 * k.val = k.val; rw [hi.1]; omega
  | ⟨1, _⟩ => show win0_0.index t (1 : Fin 3) * 16 + 1 * (q.val / 128) = 16 * t.val + q.val / 128; rw [hi.2.1]; omega
  | ⟨2, _⟩ => show win0_0.index t (2 : Fin 3) * 128 + 1 * (q.val % 128) = q.val % 128; rw [hi.2.2]; omega

/-- Window 1's index map is constant: its block is the whole array. -/
theorem idx1 : ∀ t : Fin cfg0.N, win0_1.index t (0 : Fin 2) = 0 ∧ win0_1.index t (1 : Fin 2) = 0 :=
  (by decide +kernel : ∀ t : Fin grid0.N, _)
/-- So its block at every point is the array as launched. -/
theorem iblk1_eq (c : Dev nD) (t : Fin cfg0.N) : (iblk m c 1 t : S784x4096.Idx → Elt Ideal .bf16) = m ((c : Thread nD τ).loc main_arg1) := by
  have hi := idx1 t
  funext y
  unfold iblk
  rw [View.read_apply]
  show V m c main_arg1 _ = _
  rw [V_main_arg1]
  refine congrArg _ (funext fun a => Fin.ext ?_)
  match a with
  | ⟨0, _⟩ => show win0_1.index t (0 : Fin 2) * 784 + 1 * (y 0).val = (y 0).val; rw [hi.1]; omega
  | ⟨1, _⟩ => show win0_1.index t (1 : Fin 2) * 4096 + 1 * (y 1).val = (y 1).val; rw [hi.2]; omega

/-- Window 2's index map is constant: its block is the whole array. -/
theorem idx2 : ∀ t : Fin cfg0.N, win0_2.index t (0 : Fin 2) = 0 ∧ win0_2.index t (1 : Fin 2) = 0 :=
  (by decide +kernel : ∀ t : Fin grid0.N, _)
/-- So its block at every point is the array as launched. -/
theorem iblk2_eq (c : Dev nD) (t : Fin cfg0.N) : (iblk m c 2 t : S1x1024.Idx → Elt Ideal .f32) = m ((c : Thread nD τ).loc main_arg2) := by
  have hi := idx2 t
  funext y
  unfold iblk
  rw [View.read_apply]
  show V m c main_arg2 _ = _
  rw [V_main_arg2]
  refine congrArg _ (funext fun a => Fin.ext ?_)
  match a with
  | ⟨0, _⟩ => show win0_2.index t (0 : Fin 2) * 1 + 1 * (y 0).val = (y 0).val; rw [hi.1]; omega
  | ⟨1, _⟩ => show win0_2.index t (1 : Fin 2) * 1024 + 1 * (y 1).val = (y 1).val; rw [hi.2]; omega

/-- Window 3's index map is constant: its block is the whole array. -/
theorem idx3 : ∀ t : Fin cfg0.N, win0_3.index t (0 : Fin 2) = 0 ∧ win0_3.index t (1 : Fin 2) = 0 :=
  (by decide +kernel : ∀ t : Fin grid0.N, _)
/-- So its block at every point is the array as launched. -/
theorem iblk3_eq (c : Dev nD) (t : Fin cfg0.N) : (iblk m c 3 t : S1024x1024.Idx → Elt Ideal .bf16) = m ((c : Thread nD τ).loc main_arg3) := by
  have hi := idx3 t
  funext y
  unfold iblk
  rw [View.read_apply]
  show V m c main_arg3 _ = _
  rw [V_main_arg3]
  refine congrArg _ (funext fun a => Fin.ext ?_)
  match a with
  | ⟨0, _⟩ => show win0_3.index t (0 : Fin 2) * 1024 + 1 * (y 0).val = (y 0).val; rw [hi.1]; omega
  | ⟨1, _⟩ => show win0_3.index t (1 : Fin 2) * 1024 + 1 * (y 1).val = (y 1).val; rw [hi.2]; omega

/-- Window 4's index map is constant: its block is the whole array. -/
theorem idx4 : ∀ t : Fin cfg0.N, win0_4.index t (0 : Fin 2) = 0 ∧ win0_4.index t (1 : Fin 2) = 0 :=
  (by decide +kernel : ∀ t : Fin grid0.N, _)
/-- So its block at every point is the array as launched. -/
theorem iblk4_eq (c : Dev nD) (t : Fin cfg0.N) : (iblk m c 4 t : S1x256.Idx → Elt Ideal .f32) = m ((c : Thread nD τ).loc main_arg4) := by
  have hi := idx4 t
  funext y
  unfold iblk
  rw [View.read_apply]
  show V m c main_arg4 _ = _
  rw [V_main_arg4]
  refine congrArg _ (funext fun a => Fin.ext ?_)
  match a with
  | ⟨0, _⟩ => show win0_4.index t (0 : Fin 2) * 1 + 1 * (y 0).val = (y 0).val; rw [hi.1]; omega
  | ⟨1, _⟩ => show win0_4.index t (1 : Fin 2) * 256 + 1 * (y 1).val = (y 1).val; rw [hi.2]; omega

/-- Window 5's index map is constant: its block is the whole array. -/
theorem idx5 : ∀ t : Fin cfg0.N, win0_5.index t (0 : Fin 2) = 0 ∧ win0_5.index t (1 : Fin 2) = 0 :=
  (by decide +kernel : ∀ t : Fin grid0.N, _)
/-- So its block at every point is the array as launched. -/
theorem iblk5_eq (c : Dev nD) (t : Fin cfg0.N) : (iblk m c 5 t : S256x512.Idx → Elt Ideal .bf16) = m ((c : Thread nD τ).loc main_arg5) := by
  have hi := idx5 t
  funext y
  unfold iblk
  rw [View.read_apply]
  show V m c main_arg5 _ = _
  rw [V_main_arg5]
  refine congrArg _ (funext fun a => Fin.ext ?_)
  match a with
  | ⟨0, _⟩ => show win0_5.index t (0 : Fin 2) * 256 + 1 * (y 0).val = (y 0).val; rw [hi.1]; omega
  | ⟨1, _⟩ => show win0_5.index t (1 : Fin 2) * 512 + 1 * (y 1).val = (y 1).val; rw [hi.2]; omega

/-- Window 6's index map is constant: its block is the whole array. -/
theorem idx6 : ∀ t : Fin cfg0.N, win0_6.index t (0 : Fin 2) = 0 ∧ win0_6.index t (1 : Fin 2) = 0 :=
  (by decide +kernel : ∀ t : Fin grid0.N, _)
/-- So its block at every point is the array as launched. -/
theorem iblk6_eq (c : Dev nD) (t : Fin cfg0.N) : (iblk m c 6 t : S1x512.Idx → Elt Ideal .f32) = m ((c : Thread nD τ).loc main_arg6) := by
  have hi := idx6 t
  funext y
  unfold iblk
  rw [View.read_apply]
  show V m c main_arg6 _ = _
  rw [V_main_arg6]
  refine congrArg _ (funext fun a => Fin.ext ?_)
  match a with
  | ⟨0, _⟩ => show win0_6.index t (0 : Fin 2) * 1 + 1 * (y 0).val = (y 0).val; rw [hi.1]; omega
  | ⟨1, _⟩ => show win0_6.index t (1 : Fin 2) * 512 + 1 * (y 1).val = (y 1).val; rw [hi.2]; omega

/-- Window 7's index map is constant: its block is the whole array. -/
theorem idx7 : ∀ t : Fin cfg0.N, win0_7.index t (0 : Fin 2) = 0 ∧ win0_7.index t (1 : Fin 2) = 0 :=
  (by decide +kernel : ∀ t : Fin grid0.N, _)
/-- So its block at every point is the array as launched. -/
theorem iblk7_eq (c : Dev nD) (t : Fin cfg0.N) : (iblk m c 7 t : S512x256.Idx → Elt Ideal .bf16) = m ((c : Thread nD τ).loc main_arg7) := by
  have hi := idx7 t
  funext y
  unfold iblk
  rw [View.read_apply]
  show V m c main_arg7 _ = _
  rw [V_main_arg7]
  refine congrArg _ (funext fun a => Fin.ext ?_)
  match a with
  | ⟨0, _⟩ => show win0_7.index t (0 : Fin 2) * 512 + 1 * (y 0).val = (y 0).val; rw [hi.1]; omega
  | ⟨1, _⟩ => show win0_7.index t (1 : Fin 2) * 256 + 1 * (y 1).val = (y 1).val; rw [hi.2]; omega

/-- Window 8's index map is constant: its block is the whole array. -/
theorem idx8 : ∀ t : Fin cfg0.N, win0_8.index t (0 : Fin 2) = 0 ∧ win0_8.index t (1 : Fin 2) = 0 :=
  (by decide +kernel : ∀ t : Fin grid0.N, _)
/-- So its block at every point is the array as launched. -/
theorem iblk8_eq (c : Dev nD) (t : Fin cfg0.N) : (iblk m c 8 t : S1x256.Idx → Elt Ideal .f32) = m ((c : Thread nD τ).loc main_arg8) := by
  have hi := idx8 t
  funext y
  unfold iblk
  rw [View.read_apply]
  show V m c main_arg8 _ = _
  rw [V_main_arg8]
  refine congrArg _ (funext fun a => Fin.ext ?_)
  match a with
  | ⟨0, _⟩ => show win0_8.index t (0 : Fin 2) * 1 + 1 * (y 0).val = (y 0).val; rw [hi.1]; omega
  | ⟨1, _⟩ => show win0_8.index t (1 : Fin 2) * 256 + 1 * (y 1).val = (y 1).val; rw [hi.2]; omega

/-- Window 9's index map is constant: its block is the whole array. -/
theorem idx9 : ∀ t : Fin cfg0.N, win0_9.index t (0 : Fin 2) = 0 ∧ win0_9.index t (1 : Fin 2) = 0 :=
  (by decide +kernel : ∀ t : Fin grid0.N, _)
/-- So its block at every point is the array as launched. -/
theorem iblk9_eq (c : Dev nD) (t : Fin cfg0.N) : (iblk m c 9 t : S256x128.Idx → Elt Ideal .bf16) = m ((c : Thread nD τ).loc main_arg9) := by
  have hi := idx9 t
  funext y
  unfold iblk
  rw [View.read_apply]
  show V m c main_arg9 _ = _
  rw [V_main_arg9]
  refine congrArg _ (funext fun a => Fin.ext ?_)
  match a with
  | ⟨0, _⟩ => show win0_9.index t (0 : Fin 2) * 256 + 1 * (y 0).val = (y 0).val; rw [hi.1]; omega
  | ⟨1, _⟩ => show win0_9.index t (1 : Fin 2) * 128 + 1 * (y 1).val = (y 1).val; rw [hi.2]; omega

/-- Window 10's index map is constant: its block is the whole array. -/
theorem idx10 : ∀ t : Fin cfg0.N, win0_10.index t (0 : Fin 2) = 0 ∧ win0_10.index t (1 : Fin 2) = 0 :=
  (by decide +kernel : ∀ t : Fin grid0.N, _)
/-- So its block at every point is the array as launched. -/
theorem iblk10_eq (c : Dev nD) (t : Fin cfg0.N) : (iblk m c 10 t : S1x128.Idx → Elt Ideal .f32) = m ((c : Thread nD τ).loc main_arg10) := by
  have hi := idx10 t
  funext y
  unfold iblk
  rw [View.read_apply]
  show V m c main_arg10 _ = _
  rw [V_main_arg10]
  refine congrArg _ (funext fun a => Fin.ext ?_)
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega

/-! ## What the region leaves -/

/-- The network with the weights as launched, on a pixel row. -/
def netOn (c : Dev nD) (x : Fin 784 → EReal) : Fin 128 → EReal :=
  net z0 x (m ((c : Thread nD τ).loc main_arg1) : S784x4096.Idx → EReal) (rowOf (m ((c : Thread nD τ).loc main_arg2) : S1x1024.Idx → EReal) 0)
    (m ((c : Thread nD τ).loc main_arg3) : S1024x1024.Idx → EReal) (rowOf (m ((c : Thread nD τ).loc main_arg4) : S1x256.Idx → EReal) 0)
    (m ((c : Thread nD τ).loc main_arg5) : S256x512.Idx → EReal) (rowOf (m ((c : Thread nD τ).loc main_arg6) : S1x512.Idx → EReal) 0)
    (m ((c : Thread nD τ).loc main_arg7) : S512x256.Idx → EReal) (rowOf (m ((c : Thread nD τ).loc main_arg8) : S1x256.Idx → EReal) 0)
    (m ((c : Thread nD τ).loc main_arg9) : S256x128.Idx → EReal) (rowOf (m ((c : Thread nD τ).loc main_arg10) : S1x128.Idx → EReal) 0)

/-- The [10, 8192] array the region fills: entry `(c', n)` is output `c'` of the network on image `n`. -/
def regionResult (c : Dev nD) : S10x8192.Idx → EReal := fun i =>
  netOn m c (pixelRow (m ((c : Thread nD τ).loc main_arg0) : S8192x1x28x28.Idx → EReal) (i 1)) ⟨(i 0).val, Nat.lt_of_lt_of_le (i 0).isLt (by decide)⟩

theorem regionResult_apply (c : Dev nD) (i : S10x8192.Idx) (p : Fin 10) (n : Fin 8192) (h0 : (i 0).val = p.val) (h1 : (i 1).val = n.val) :
    regionResult m c i = netOn m c (pixelRow (m ((c : Thread nD τ).loc main_arg0) : S8192x1x28x28.Idx → EReal) n) ⟨p.val, Nat.lt_of_lt_of_le p.isLt (by decide)⟩ := by
  obtain rfl : i = ix2 p n := funext fun a => match a with | ⟨0, _⟩ => Fin.ext h0 | ⟨1, _⟩ => Fin.ext h1
  rfl

/-- The output window walks the images: point `t` writes columns `2048 t … 2048 t + 2047`. -/
theorem idx11 : ∀ t : Fin cfg0.N, win0_11.index t (0 : Fin 2) = 0 ∧ win0_11.index t (1 : Fin 2) = t.val :=
  (by decide +kernel : ∀ t : Fin grid0.N, _)

/-- WHAT POINT `t` WRITES BACK is block `t` of `regionResult`. -/
theorem flushed_eq (c : Dev nD) (t : Fin cfg0.N) :
    (dats m 0 c).flushed 11 t = ((cfg0.win 11).blk t).view.read (Elt Ideal) (regionResult m c) := by
  have hN : cfg0.N = 4 := N_0
  have hi := idx11 t
  show (cfg0.win 11).cut (grid0.coords t) ((dats m 0 c).after 11 t) = _
  rw [after0_11]
  unfold out0_11
  rw [View.canon_unit_zero hz2]
  simp only [View.ld_unit_zero (S := S784x16x128) hz3, View.ld_unit_zero (S := S1x1024) hz2, View.ld_unit_zero (S := S1024x1024) hz2,
    View.ld_unit_zero (S := S1x256) hz2, View.ld_unit_zero (S := S256x512) hz2, View.ld_unit_zero (S := S1x512) hz2,
    View.ld_unit_zero (S := S512x256) hz2, View.ld_unit_zero (S := S256x128) hz2, View.ld_unit_zero (S := S1x128) hz2]
  funext j
  obtain ⟨p, q, rfl⟩ : ∃ (p : Fin 10) (q : Fin 2048), j = ix2 p q := ⟨j 0, j 1, eq_ix2 j⟩
  rw [View.read_apply]
  refine Eq.trans ?_ (regionResult_apply m c _ p (⟨2048 * t.val + q.val, by have := t.isLt; have := q.isLt; omega⟩ : Fin 8192) ?_ ?_).symm
  · refine (body_entry (iblk m c 0 t) (iblk m c 1 t) (iblk m c 2 t) (iblk m c 3 t) (iblk m c 4 t) (iblk m c 5 t) (iblk m c 6 t) (iblk m c 7 t)
      (iblk m c 8 t) (iblk m c 9 t) (iblk m c 10 t) p q).trans ?_
    rw [blockCol_iblk0 m c t q (⟨2048 * t.val + q.val, by have := t.isLt; have := q.isLt; omega⟩ : Fin 8192) rfl,
      iblk1_eq m c t, iblk2_eq m c t, iblk3_eq m c t, iblk4_eq m c t, iblk5_eq m c t, iblk6_eq m c t, iblk7_eq m c t, iblk8_eq m c t,
      iblk9_eq m c t, iblk10_eq m c t]
    rfl
  · show win0_11.index t (0 : Fin 2) * 10 + 1 * p.val = p.val
    rw [hi.1]; omega
  · show win0_11.index t (1 : Fin 2) * 2048 + 1 * q.val = 2048 * t.val + q.val
    rw [hi.2]; omega

/-- An index of the array is in point `t`'s block iff each coordinate is in the block's range on its axis. -/
theorem mem_blk (t : Fin cfg0.N) (i : S10x8192.Idx) :
    i ∈ ((cfg0.win 11).blk t).view.set ↔ ∀ a : Fin 2, win0_11.index t a * S10x2048.size a ≤ (i a).val ∧ (i a).val < win0_11.index t a * S10x2048.size a + S10x2048.size a := by
  show i ∈ ((View.whole main_v2).slice (win0_11.rect t)).set ↔ _
  rw [View.set_slice_whole, Rect.mem_set_unit]
  exact Iff.rfl

/-- Every index of the array is in the block of the point that takes its image. -/
theorem cover (i : S10x8192.Idx) : ∃ t : Fin cfg0.N, (cfg0.win 11).flush t = true ∧ i ∈ ((cfg0.win 11).blk t).view.set := by
  have hN : cfg0.N = 4 := N_0
  have h0 : (i 0).val < 10 := (i 0).isLt
  have h1 : (i 1).val < 8192 := (i 1).isLt
  let t : Fin cfg0.N := ⟨(i 1).val / 2048, by omega⟩
  have hi := idx11 t
  refine ⟨t, flush0_11 t, ?_⟩
  rw [mem_blk]
  intro a
  match a with
  | ⟨0, _⟩ => show win0_11.index t (0 : Fin 2) * 10 ≤ (i 0).val ∧ (i 0).val < win0_11.index t (0 : Fin 2) * 10 + 10; rw [hi.1]; omega
  | ⟨1, _⟩ =>
    show win0_11.index t (1 : Fin 2) * 2048 ≤ (i 1).val ∧ (i 1).val < win0_11.index t (1 : Fin 2) * 2048 + 2048
    rw [hi.2]; show (i 1).val / 2048 * 2048 ≤ (i 1).val ∧ (i 1).val < (i 1).val / 2048 * 2048 + 2048; omega

/-- THE ARRAY after the region: `regionResult`. -/
theorem final (c : Dev nD) : (dats m 0 c).arrAt 11 cfg0.N = regionResult m c :=
  (dats m 0 c).arrAt_eq_of_cover 11 (regionResult m c) (fun t _ => flushed_eq m c t) cover

/-! ## After the region, and the run -/

/-- The result the claim speaks of: entry `(n, c')`, `c' < 10`, is output `c'` of the network on image `n`. -/
def finalResult (c : Dev nD) : S8192x10.Idx → EReal := fun i =>
  netOn m c (pixelRow (m ((c : Thread nD τ).loc main_arg0) : S8192x1x28x28.Idx → EReal) (i 0)) ⟨(i 1).val, Nat.lt_of_lt_of_le (i 1).isLt (by decide)⟩

/-- The host's transpose after the region turns the region's array into it. -/
theorem tail_v3 (c : Dev nD) :
    Pipeline.afterTail₀ cfgs (dats m) 0 (V0 m) [hostOps1] c main_v3 = finalResult m c := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 11).trans (final m c)
  refine (congrArg (fun X : S10x8192.Idx → Elt Ideal .f32 => transpose S8192x10 [1, 0] X transposes_S10x8192_S8192x10_1_0) e).trans ?_
  funext i
  obtain ⟨n, p, rfl⟩ : ∃ (n : Fin 8192) (p : Fin 10), i = ix2 n p := ⟨i 0, i 1, eq_ix2 i⟩
  exact transpose_ix2_apply _ _ n p

/-- THE RUN, READ: the result array at the network on every image, the arguments unchanged. -/
theorem run : θ_run defs (onTc (τ := τ) (main (F := Ideal))) ⟨m, fun _ => 0, ρ⟩ fun r => ∀ c : Dev nD,
      r.2.mem ((c.tc : Thread nD τ).loc main_v3) = finalResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.KernelIdeal.Hand

end
-- ==== Proof.RefRows.lean ====
/-
  The reference's body, read one row at a time.

  The reference holds a block of 512 images as a [512, 784] array, one image per row, and every operation of its body
  acts on rows: a product with a matrix, a window of columns, a maximum, a bias row added, a rectifier. So row p of what
  the body stores is the network on row p of the block.
-/
import proofs.«131907_g2000202601506787_pallasbulk_1052_41_alg».proof.ReferenceIdeal
import proofs.«131907_g2000202601506787_pallasbulk_1052_41_alg».proof.Proof.Gen.ReferenceIdeal
import proofs.«131907_g2000202601506787_pallasbulk_1052_41_alg».proof.Proof.Gen.ReferenceIdeal.Skeleton
import proofs.«131907_g2000202601506787_pallasbulk_1052_41_alg».proof.Proof.Spec
import Idealize.ShloMosaic.Lib.Pipeline.Value
import Idealize.ShloMosaic.Lib.ValueLayout

noncomputable section

namespace Cert.ReferenceIdeal.Rows

open Idealize.ShloMosaic Idealize.ShloMosaic.ValueIdx
open Cert.RowLayers Cert.LeNetSpec
open Cert.ReferenceIdeal Cert.ReferenceIdeal.Gen

/-- The rectifiers' threshold: the float zero. -/
abbrev z0 : EReal := (Scalar.ofBits .f32 0x00000000#32 : Ideal .f32)

/-! ## The five products' dimension numbers: each is rows times columns -/

theorem dims_first : RowsTimesCols (a := 512) (K := 784) (b := 4096) dot_S512x784_S784x4096_S512x4096_1_0_0_1_n_n where
  rank := rfl
  size := rfl
  lhs0 := fun j q => by simp [DotDims.lhsIdx, dot_S512x784_S784x4096_S512x4096_1_0_0_1_n_n]; rfl
  lhs1 := fun j q => by simp [DotDims.lhsIdx, dot_S512x784_S784x4096_S512x4096_1_0_0_1_n_n]; rfl
  rhs0 := fun j q => by simp [DotDims.rhsIdx, dot_S512x784_S784x4096_S512x4096_1_0_0_1_n_n]; rfl
  rhs1 := fun j q => by simp [DotDims.rhsIdx, dot_S512x784_S784x4096_S512x4096_1_0_0_1_n_n]; rfl

theorem dims_second : RowsTimesCols (a := 512) (K := 1024) (b := 1024) dot_S512x1024_S1024x1024_S512x1024_1_0_0_1_n_n where
  rank := rfl
  size := rfl
  lhs0 := fun j q => by simp [DotDims.lhsIdx, dot_S512x1024_S1024x1024_S512x1024_1_0_0_1_n_n]; rfl
  lhs1 := fun j q => by simp [DotDims.lhsIdx, dot_S512x1024_S1024x1024_S512x1024_1_0_0_1_n_n]; rfl
  rhs0 := fun j q => by simp [DotDims.rhsIdx, dot_S512x1024_S1024x1024_S512x1024_1_0_0_1_n_n]; rfl
  rhs1 := fun j q => by simp [DotDims.rhsIdx, dot_S512x1024_S1024x1024_S512x1024_1_0_0_1_n_n]; rfl

theorem dims_fc1 : RowsTimesCols (a := 512) (K := 256) (b := 512) dot_S512x256_S256x512_S512x512_1_0_0_1_n_n where
  rank := rfl
  size := rfl
  lhs0 := fun j q => by simp [DotDims.lhsIdx, dot_S512x256_S256x512_S512x512_1_0_0_1_n_n]; rfl
  lhs1 := fun j q => by simp [DotDims.lhsIdx, dot_S512x256_S256x512_S512x512_1_0_0_1_n_n]; rfl
  rhs0 := fun j q => by simp [DotDims.rhsIdx, dot_S512x256_S256x512_S512x512_1_0_0_1_n_n]; rfl
  rhs1 := fun j q => by simp [DotDims.rhsIdx, dot_S512x256_S256x512_S512x512_1_0_0_1_n_n]; rfl

theorem dims_fc2 : RowsTimesCols (a := 512) (K := 512) (b := 256) dot_S512x512_S512x256_S512x256_1_0_0_1_n_n where
  rank := rfl
  size := rfl
  lhs0 := fun j q => by simp [DotDims.lhsIdx, dot_S512x512_S512x256_S512x256_1_0_0_1_n_n]; rfl
  lhs1 := fun j q => by simp [DotDims.lhsIdx, dot_S512x512_S512x256_S512x256_1_0_0_1_n_n]; rfl
  rhs0 := fun j q => by simp [DotDims.rhsIdx, dot_S512x512_S512x256_S512x256_1_0_0_1_n_n]; rfl
  rhs1 := fun j q => by simp [DotDims.rhsIdx, dot_S512x512_S512x256_S512x256_1_0_0_1_n_n]; rfl

theorem dims_fc3 : RowsTimesCols (a := 512) (K := 256) (b := 128) dot_S512x256_S256x128_S512x128_1_0_0_1_n_n where
  rank := rfl
  size := rfl
  lhs0 := fun j q => by simp [DotDims.lhsIdx, dot_S512x256_S256x128_S512x128_1_0_0_1_n_n]; rfl
  lhs1 := fun j q => by simp [DotDims.lhsIdx, dot_S512x256_S256x128_S512x128_1_0_0_1_n_n]; rfl
  rhs0 := fun j q => by simp [DotDims.rhsIdx, dot_S512x256_S256x128_S512x128_1_0_0_1_n_n]; rfl
  rhs1 := fun j q => by simp [DotDims.rhsIdx, dot_S512x256_S256x128_S512x128_1_0_0_1_n_n]; rfl

/-! ## The body's two payloads on a row -/

/-- Row `p` of the first payload: the two pooled stages and the first dense layer, rectified. -/
theorem pay2_row (v0 : Vec Ideal S512x784 .bf16) (v2 : Vec Ideal S784x4096 .bf16) (v11 : Vec Ideal S1x1024 .f32) (v17 : Vec Ideal S1024x1024 .bf16)
    (v26 : Vec Ideal S1x256 .f32) (v32 : Vec Ideal S256x512 .bf16) (v34 : Vec Ideal S1x512 .f32) (p : Fin 512) :
    rowOf (k0_pay2 (F := Ideal) v0 v2 v11 v17 v26 v32 v34) p
      = relu z0 (dense (stage2 z0 (stage1 z0 (rowOf v0 p) v2 (rowOf v11 0)) v17 (rowOf v26 0)) v32 (rowOf v34 0)) := by
  unfold k0_pay2
  dsimp only
  rw [rowOf_maximumf_splat, rowOf_dense_device dims_fc1, rowOf_truncf,
    rowOf_maximumf_splat, rowOf_addf, rowOf_broadcastTo, rowOf_maximumf, rowOf_maximumf, rowOf_maximumf,
    rowOf_slice_cols, rowOf_slice_cols, rowOf_slice_cols, rowOf_slice_cols, rowOf_matmul_zero dims_second, rowOf_truncf,
    rowOf_maximumf_splat, rowOf_addf, rowOf_broadcastTo, rowOf_maximumf, rowOf_maximumf, rowOf_maximumf,
    rowOf_slice_cols, rowOf_slice_cols, rowOf_slice_cols, rowOf_slice_cols, rowOf_matmul_zero dims_first, shapeCast_self]
  rfl

/-- Row `p` of the second payload: the last two dense layers. -/
theorem pay1_row (v38 : FVec Ideal S512x512 .f32) (v40 : Vec Ideal S512x256 .bf16) (v42 : Vec Ideal S1x256 .f32) (v48 : Vec Ideal S256x128 .bf16)
    (v50 : Vec Ideal S1x128 .f32) (p : Fin 512) :
    rowOf (k0_pay1 (F := Ideal) v38 v40 v42 v48 v50) p
      = dense (relu z0 (dense (rowOf v38 p) v40 (rowOf v42 0))) v48 (rowOf v50 0) := by
  unfold k0_pay1
  dsimp only
  rw [rowOf_dense_device dims_fc3, rowOf_truncf, rowOf_maximumf_splat, rowOf_dense_device dims_fc2, rowOf_truncf]

/-- What the body stores, row `p`: the network on row `p` of the block. -/
theorem body_row (x0 : Vec Ideal S512x784 .bf16) (x1 : Vec Ideal S784x4096 .bf16) (x2 : Vec Ideal S1x1024 .f32) (x3 : Vec Ideal S1024x1024 .bf16)
    (x4 : Vec Ideal S1x256 .f32) (x5 : Vec Ideal S256x512 .bf16) (x6 : Vec Ideal S1x512 .f32) (x7 : Vec Ideal S512x256 .bf16) (x8 : Vec Ideal S1x256 .f32)
    (x9 : Vec Ideal S256x128 .bf16) (x10 : Vec Ideal S1x128 .f32) (p : Fin 512) :
    rowOf (k0_pay1 (F := Ideal) (k0_pay2 x0 x1 x2 x3 x4 x5 x6) x7 x8 x9 x10) p
      = net z0 (rowOf x0 p) x1 (rowOf x2 0) x3 (rowOf x4 0) x5 (rowOf x6 0) x7 (rowOf x8 0) x9 (rowOf x10 0) := by
  rw [pay1_row, pay2_row]
  rfl

end Cert.ReferenceIdeal.Rows

end
-- ==== Proof.RefValue.lean ====
/-
  The reference's run, read as values.

  Before the region the host flattens each image to a row of 784 pixels (a reshape) and changes the float format. The
  region's sixteen grid points each take 512 rows and write a [512, 128] block of an [8192, 128] array; after the region
  the host keeps the first ten columns. So the final [8192, 10] array holds, at (n, c), output c of the network on image n.
-/
import proofs.«131907_g2000202601506787_pallasbulk_1052_41_alg».proof.Defs
import proofs.«131907_g2000202601506787_pallasbulk_1052_41_alg».proof.Proof.Gen.ReferenceIdeal.Frame
import proofs.«131907_g2000202601506787_pallasbulk_1052_41_alg».proof.Proof.RefRows
import Idealize.ShloMosaic.Lib.Pipeline.Value
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Hand

open Idealize.ShloMosaic.ValueIdx Cert.RowLayers Cert.LeNetSpec
open Cert.ReferenceIdeal Cert.ReferenceIdeal.Gen Cert.ReferenceIdeal.Rows

variable (m : (ℓ : Loc nD τ sig) → Buf (Elt Ideal) ℓ) (ρ : Dev nD → PrngReg)

theorem hz2 : (![0, 0] : Fin 2 → Nat) = fun _ => 0 := funext fun a => by fin_cases a <;> rfl

/-! ## The host's re-layout before the region -/

/-- The array the region's first window reads is the batch with each image flattened, in the narrower float format. -/
theorem V_v1 (c : Dev nD) :
    (V m c main_v1 : S8192x784.Idx → Elt Ideal .bf16)
      = truncf .bf16 (shapeCast S8192x784 (m ((c : Thread nD τ).loc main_arg0)) shapeCasts_S8192x1x28x28_S8192x784 : FVec Ideal S8192x784 .f32) bitsLt_bf16_f32 := by
  show StableHlo.after hostOps0 (fun b => m (c, b)) (Proc.devRef .tc main_v1) = _
  after_results
  rfl

/-- It reads, at `(n, k)`, pixel `k` of image `n`. -/
theorem v1_apply (c : Dev nD) (n : Fin 8192) (k : Fin 784) :
    (V m c main_v1 : S8192x784.Idx → Elt Ideal .bf16) (ix2 n k) = pixelRow (m ((c : Thread nD τ).loc main_arg0)) n k := by
  rw [V_v1, truncf_apply]
  exact shapeCast_apply _ _ (ix2 n k) (ix4 n (0 : Fin 1) (⟨k.val / 28, by have := k.isLt; omega⟩ : Fin 28) (⟨k.val % 28, Nat.mod_lt _ (by decide)⟩ : Fin 28)) (by
    rw [Shape.rowMajor_val_four, Shape.rowMajor_val_two]
    show ((n.val * 1 + 0) * 28 + k.val / 28) * 28 + k.val % 28 = n.val * 784 + k.val
    omega)

/-! ## The windows' blocks -/

/-- The first window walks the rows: point `t` takes rows `512 t … 512 t + 511`. -/
theorem idx0 : ∀ t : Fin cfg0.N, win0_0.index t (0 : Fin 2) = t.val ∧ win0_0.index t (1 : Fin 2) = 0 :=
  (by decide +kernel : ∀ t : Fin grid0.N, _)

/-- Row `p` of point `t`'s block is image `512 t + p` of the batch. -/
theorem rowOf_iblk0 (c : Dev nD) (t : Fin cfg0.N) (p : Fin 512) (n : Fin 8192) (hn : n.val = 512 * t.val + p.val) :
    rowOf (iblk m c 0 t : S512x784.Idx → Elt Ideal .bf16) p = pixelRow (m ((c : Thread nD τ).loc main_arg0)) n := by
  have hi := idx0 t
  funext k
  unfold rowOf iblk
  rw [View.read_apply]
  show V m c main_v1 _ = _
  refine Eq.trans (congrArg _ (funext fun a => Fin.ext ?_)) (v1_apply m c n k)
  match a with
  | ⟨0, _⟩ => show win0_0.index t (0 : Fin 2) * 512 + 1 * p.val = n.val; rw [hi.1]; omega
  | ⟨1, _⟩ => show win0_0.index t (1 : Fin 2) * 784 + 1 * k.val = k.val; rw [hi.2]; omega

/-- Window 1's index map is constant: its block is the whole array. -/
theorem idx1 : ∀ t : Fin cfg0.N, win0_1.index t (0 : Fin 2) = 0 ∧ win0_1.index t (1 : Fin 2) = 0 :=
  (by decide +kernel : ∀ t : Fin grid0.N, _)
/-- So its block at every point is the array as launched. -/
theorem iblk1_eq (c : Dev nD) (t : Fin cfg0.N) : (iblk m c 1 t : S784x4096.Idx → Elt Ideal .bf16) = m ((c : Thread nD τ).loc main_arg1) := by
  have hi := idx1 t
  funext y
  unfold iblk
  rw [View.read_apply]
  show V m c main_arg1 _ = _
  rw [V_main_arg1]
  refine congrArg _ (funext fun a => Fin.ext ?_)
  match a with
  | ⟨0, _⟩ => show win0_1.index t (0 : Fin 2) * 784 + 1 * (y 0).val = (y 0).val; rw [hi.1]; omega
  | ⟨1, _⟩ => show win0_1.index t (1 : Fin 2) * 4096 + 1 * (y 1).val = (y 1).val; rw [hi.2]; omega

/-- Window 2's index map is constant: its block is the whole array. -/
theorem idx2 : ∀ t : Fin cfg0.N, win0_2.index t (0 : Fin 2) = 0 ∧ win0_2.index t (1 : Fin 2) = 0 :=
  (by decide +kernel : ∀ t : Fin grid0.N, _)
/-- So its block at every point is the array as launched. -/
theorem iblk2_eq (c : Dev nD) (t : Fin cfg0.N) : (iblk m c 2 t : S1x1024.Idx → Elt Ideal .f32) = m ((c : Thread nD τ).loc main_arg2) := by
  have hi := idx2 t
  funext y
  unfold iblk
  rw [View.read_apply]
  show V m c main_arg2 _ = _
  rw [V_main_arg2]
  refine congrArg _ (funext fun a => Fin.ext ?_)
  match a with
  | ⟨0, _⟩ => show win0_2.index t (0 : Fin 2) * 1 + 1 * (y 0).val = (y 0).val; rw [hi.1]; omega
  | ⟨1, _⟩ => show win0_2.index t (1 : Fin 2) * 1024 + 1 * (y 1).val = (y 1).val; rw [hi.2]; omega

/-- Window 3's index map is constant: its block is the whole array. -/
theorem idx3 : ∀ t : Fin cfg0.N, win0_3.index t (0 : Fin 2) = 0 ∧ win0_3.index t (1 : Fin 2) = 0 :=
  (by decide +kernel : ∀ t : Fin grid0.N, _)
/-- So its block at every point is the array as launched. -/
theorem iblk3_eq (c : Dev nD) (t : Fin cfg0.N) : (iblk m c 3 t : S1024x1024.Idx → Elt Ideal .bf16) = m ((c : Thread nD τ).loc main_arg3) := by
  have hi := idx3 t
  funext y
  unfold iblk
  rw [View.read_apply]
  show V m c main_arg3 _ = _
  rw [V_main_arg3]
  refine congrArg _ (funext fun a => Fin.ext ?_)
  match a with
  | ⟨0, _⟩ => show win0_3.index t (0 : Fin 2) * 1024 + 1 * (y 0).val = (y 0).val; rw [hi.1]; omega
  | ⟨1, _⟩ => show win0_3.index t (1 : Fin 2) * 1024 + 1 * (y 1).val = (y 1).val; rw [hi.2]; omega

/-- Window 4's index map is constant: its block is the whole array. -/
theorem idx4 : ∀ t : Fin cfg0.N, win0_4.index t (0 : Fin 2) = 0 ∧ win0_4.index t (1 : Fin 2) = 0 :=
  (by decide +kernel : ∀ t : Fin grid0.N, _)
/-- So its block at every point is the array as launched. -/
theorem iblk4_eq (c : Dev nD) (t : Fin cfg0.N) : (iblk m c 4 t : S1x256.Idx → Elt Ideal .f32) = m ((c : Thread nD τ).loc main_arg4) := by
  have hi := idx4 t
  funext y
  unfold iblk
  rw [View.read_apply]
  show V m c main_arg4 _ = _
  rw [V_main_arg4]
  refine congrArg _ (funext fun a => Fin.ext ?_)
  match a with
  | ⟨0, _⟩ => show win0_4.index t (0 : Fin 2) * 1 + 1 * (y 0).val = (y 0).val; rw [hi.1]; omega
  | ⟨1, _⟩ => show win0_4.index t (1 : Fin 2) * 256 + 1 * (y 1).val = (y 1).val; rw [hi.2]; omega

/-- Window 5's index map is constant: its block is the whole array. -/
theorem idx5 : ∀ t : Fin cfg0.N, win0_5.index t (0 : Fin 2) = 0 ∧ win0_5.index t (1 : Fin 2) = 0 :=
  (by decide +kernel : ∀ t : Fin grid0.N, _)
/-- So its block at every point is the array as launched. -/
theorem iblk5_eq (c : Dev nD) (t : Fin cfg0.N) : (iblk m c 5 t : S256x512.Idx → Elt Ideal .bf16) = m ((c : Thread nD τ).loc main_arg5) := by
  have hi := idx5 t
  funext y
  unfold iblk
  rw [View.read_apply]
  show V m c main_arg5 _ = _
  rw [V_main_arg5]
  refine congrArg _ (funext fun a => Fin.ext ?_)
  match a with
  | ⟨0, _⟩ => show win0_5.index t (0 : Fin 2) * 256 + 1 * (y 0).val = (y 0).val; rw [hi.1]; omega
  | ⟨1, _⟩ => show win0_5.index t (1 : Fin 2) * 512 + 1 * (y 1).val = (y 1).val; rw [hi.2]; omega

/-- Window 6's index map is constant: its block is the whole array. -/
theorem idx6 : ∀ t : Fin cfg0.N, win0_6.index t (0 : Fin 2) = 0 ∧ win0_6.index t (1 : Fin 2) = 0 :=
  (by decide +kernel : ∀ t : Fin grid0.N, _)
/-- So its block at every point is the array as launched. -/
theorem iblk6_eq (c : Dev nD) (t : Fin cfg0.N) : (iblk m c 6 t : S1x512.Idx → Elt Ideal .f32) = m ((c : Thread nD τ).loc main_arg6) := by
  have hi := idx6 t
  funext y
  unfold iblk
  rw [View.read_apply]
  show V m c main_arg6 _ = _
  rw [V_main_arg6]
  refine congrArg _ (funext fun a => Fin.ext ?_)
  match a with
  | ⟨0, _⟩ => show win0_6.index t (0 : Fin 2) * 1 + 1 * (y 0).val = (y 0).val; rw [hi.1]; omega
  | ⟨1, _⟩ => show win0_6.index t (1 : Fin 2) * 512 + 1 * (y 1).val = (y 1).val; rw [hi.2]; omega

/-- Window 7's index map is constant: its block is the whole array. -/
theorem idx7 : ∀ t : Fin cfg0.N, win0_7.index t (0 : Fin 2) = 0 ∧ win0_7.index t (1 : Fin 2) = 0 :=
  (by decide +kernel : ∀ t : Fin grid0.N, _)
/-- So its block at every point is the array as launched. -/
theorem iblk7_eq (c : Dev nD) (t : Fin cfg0.N) : (iblk m c 7 t : S512x256.Idx → Elt Ideal .bf16) = m ((c : Thread nD τ).loc main_arg7) := by
  have hi := idx7 t
  funext y
  unfold iblk
  rw [View.read_apply]
  show V m c main_arg7 _ = _
  rw [V_main_arg7]
  refine congrArg _ (funext fun a => Fin.ext ?_)
  match a with
  | ⟨0, _⟩ => show win0_7.index t (0 : Fin 2) * 512 + 1 * (y 0).val = (y 0).val; rw [hi.1]; omega
  | ⟨1, _⟩ => show win0_7.index t (1 : Fin 2) * 256 + 1 * (y 1).val = (y 1).val; rw [hi.2]; omega

/-- Window 8's index map is constant: its block is the whole array. -/
theorem idx8 : ∀ t : Fin cfg0.N, win0_8.index t (0 : Fin 2) = 0 ∧ win0_8.index t (1 : Fin 2) = 0 :=
  (by decide +kernel : ∀ t : Fin grid0.N, _)
/-- So its block at every point is the array as launched. -/
theorem iblk8_eq (c : Dev nD) (t : Fin cfg0.N) : (iblk m c 8 t : S1x256.Idx → Elt Ideal .f32) = m ((c : Thread nD τ).loc main_arg8) := by
  have hi := idx8 t
  funext y
  unfold iblk
  rw [View.read_apply]
  show V m c main_arg8 _ = _
  rw [V_main_arg8]
  refine congrArg _ (funext fun a => Fin.ext ?_)
  match a with
  | ⟨0, _⟩ => show win0_8.index t (0 : Fin 2) * 1 + 1 * (y 0).val = (y 0).val; rw [hi.1]; omega
  | ⟨1, _⟩ => show win0_8.index t (1 : Fin 2) * 256 + 1 * (y 1).val = (y 1).val; rw [hi.2]; omega

/-- Window 9's index map is constant: its block is the whole array. -/
theorem idx9 : ∀ t : Fin cfg0.N, win0_9.index t (0 : Fin 2) = 0 ∧ win0_9.index t (1 : Fin 2) = 0 :=
  (by decide +kernel : ∀ t : Fin grid0.N, _)
/-- So its block at every point is the array as launched. -/
theorem iblk9_eq (c : Dev nD) (t : Fin cfg0.N) : (iblk m c 9 t : S256x128.Idx → Elt Ideal .bf16) = m ((c : Thread nD τ).loc main_arg9) := by
  have hi := idx9 t
  funext y
  unfold iblk
  rw [View.read_apply]
  show V m c main_arg9 _ = _
  rw [V_main_arg9]
  refine congrArg _ (funext fun a => Fin.ext ?_)
  match a with
  | ⟨0, _⟩ => show win0_9.index t (0 : Fin 2) * 256 + 1 * (y 0).val = (y 0).val; rw [hi.1]; omega
  | ⟨1, _⟩ => show win0_9.index t (1 : Fin 2) * 128 + 1 * (y 1).val = (y 1).val; rw [hi.2]; omega

/-- Window 10's index map is constant: its block is the whole array. -/
theorem idx10 : ∀ t : Fin cfg0.N, win0_10.index t (0 : Fin 2) = 0 ∧ win0_10.index t (1 : Fin 2) = 0 :=
  (by decide +kernel : ∀ t : Fin grid0.N, _)
/-- So its block at every point is the array as launched. -/
theorem iblk10_eq (c : Dev nD) (t : Fin cfg0.N) : (iblk m c 10 t : S1x128.Idx → Elt Ideal .f32) = m ((c : Thread nD τ).loc main_arg10) := by
  have hi := idx10 t
  funext y
  unfold iblk
  rw [View.read_apply]
  show V m c main_arg10 _ = _
  rw [V_main_arg10]
  refine congrArg _ (funext fun a => Fin.ext ?_)
  match a with
  | ⟨0, _⟩ => show win0_10.index t (0 : Fin 2) * 1 + 1 * (y 0).val = (y 0).val; rw [hi.1]; omega
  | ⟨1, _⟩ => show win0_10.index t (1 : Fin 2) * 128 + 1 * (y 1).val = (y 1).val; rw [hi.2]; omega

/-! ## What the region leaves -/

/-- The network with the weights as launched, on a pixel row. -/
def netOn (c : Dev nD) (x : Fin 784 → EReal) : Fin 128 → EReal :=
  net z0 x (m ((c : Thread nD τ).loc main_arg1) : S784x4096.Idx → EReal) (rowOf (m ((c : Thread nD τ).loc main_arg2) : S1x1024.Idx → EReal) 0)
    (m ((c : Thread nD τ).loc main_arg3) : S1024x1024.Idx → EReal) (rowOf (m ((c : Thread nD τ).loc main_arg4) : S1x256.Idx → EReal) 0)
    (m ((c : Thread nD τ).loc main_arg5) : S256x512.Idx → EReal) (rowOf (m ((c : Thread nD τ).loc main_arg6) : S1x512.Idx → EReal) 0)
    (m ((c : Thread nD τ).loc main_arg7) : S512x256.Idx → EReal) (rowOf (m ((c : Thread nD τ).loc main_arg8) : S1x256.Idx → EReal) 0)
    (m ((c : Thread nD τ).loc main_arg9) : S256x128.Idx → EReal) (rowOf (m ((c : Thread nD τ).loc main_arg10) : S1x128.Idx → EReal) 0)

/-- The [8192, 128] array the region fills: row `n` is the network on image `n`. -/
def regionResult (c : Dev nD) : S8192x128.Idx → EReal := fun i =>
  netOn m c (pixelRow (m ((c : Thread nD τ).loc main_arg0) : S8192x1x28x28.Idx → EReal) (i 0)) (i 1)

theorem regionResult_apply (c : Dev nD) (i : S8192x128.Idx) (n : Fin 8192) (q : Fin 128) (h0 : (i 0).val = n.val) (h1 : (i 1).val = q.val) :
    regionResult m c i = netOn m c (pixelRow (m ((c : Thread nD τ).loc main_arg0) : S8192x1x28x28.Idx → EReal) n) q := by
  obtain rfl : i = ix2 n q := funext fun a => match a with | ⟨0, _⟩ => Fin.ext h0 | ⟨1, _⟩ => Fin.ext h1
  rfl

/-- The output window walks the rows with the first one. -/
theorem idx11 : ∀ t : Fin cfg0.N, win0_11.index t (0 : Fin 2) = t.val ∧ win0_11.index t (1 : Fin 2) = 0 :=
  (by decide +kernel : ∀ t : Fin grid0.N, _)

/-- WHAT POINT `t` WRITES BACK is block `t` of `regionResult`. -/
theorem flushed_eq (c : Dev nD) (t : Fin cfg0.N) :
    (dats m 0 c).flushed 11 t = ((cfg0.win 11).blk t).view.read (Elt Ideal) (regionResult m c) := by
  have hN : cfg0.N = 16 := N_0
  have hi := idx11 t
  show (cfg0.win 11).cut (grid0.coords t) ((dats m 0 c).after 11 t) = _
  rw [after0_11]
  unfold out0_11
  rw [View.canon_unit_zero hz2]
  simp only [View.ld_unit_zero (S := S512x784) hz2, View.ld_unit_zero (S := S784x4096) hz2, View.ld_unit_zero (S := S1x1024) hz2, View.ld_unit_zero (S := S1024x1024) hz2,
    View.ld_unit_zero (S := S1x256) hz2, View.ld_unit_zero (S := S256x512) hz2, View.ld_unit_zero (S := S1x512) hz2,
    View.ld_unit_zero (S := S512x256) hz2, View.ld_unit_zero (S := S256x128) hz2, View.ld_unit_zero (S := S1x128) hz2]
  funext j
  obtain ⟨p, q, rfl⟩ : ∃ (p : Fin 512) (q : Fin 128), j = ix2 p q := ⟨j 0, j 1, eq_ix2 j⟩
  rw [View.read_apply]
  refine Eq.trans ?_ (regionResult_apply m c _ (⟨512 * t.val + p.val, by have := t.isLt; have := p.isLt; omega⟩ : Fin 8192) q ?_ ?_).symm
  · refine (congrFun (body_row (iblk m c 0 t) (iblk m c 1 t) (iblk m c 2 t) (iblk m c 3 t) (iblk m c 4 t) (iblk m c 5 t) (iblk m c 6 t) (iblk m c 7 t)
      (iblk m c 8 t) (iblk m c 9 t) (iblk m c 10 t) p) q).trans ?_
    rw [rowOf_iblk0 m c t p (⟨512 * t.val + p.val, by have := t.isLt; have := p.isLt; omega⟩ : Fin 8192) rfl,
      iblk1_eq m c t, iblk2_eq m c t, iblk3_eq m c t, iblk4_eq m c t, iblk5_eq m c t, iblk6_eq m c t, iblk7_eq m c t, iblk8_eq m c t,
      iblk9_eq m c t, iblk10_eq m c t]
    rfl
  · show win0_11.index t (0 : Fin 2) * 512 + 1 * p.val = 512 * t.val + p.val
    rw [hi.1]; omega
  · show win0_11.index t (1 : Fin 2) * 128 + 1 * q.val = q.val
    rw [hi.2]; omega

/-- An index of the array is in point `t`'s block iff each coordinate is in the block's range on its axis. -/
theorem mem_blk (t : Fin cfg0.N) (i : S8192x128.Idx) :
    i ∈ ((cfg0.win 11).blk t).view.set ↔ ∀ a : Fin 2, win0_11.index t a * S512x128.size a ≤ (i a).val ∧ (i a).val < win0_11.index t a * S512x128.size a + S512x128.size a := by
  show i ∈ ((View.whole main_v2).slice (win0_11.rect t)).set ↔ _
  rw [View.set_slice_whole, Rect.mem_set_unit]
  exact Iff.rfl

/-- Every index of the array is in the block of the point that takes its row. -/
theorem cover (i : S8192x128.Idx) : ∃ t : Fin cfg0.N, (cfg0.win 11).flush t = true ∧ i ∈ ((cfg0.win 11).blk t).view.set := by
  have hN : cfg0.N = 16 := N_0
  have h0 : (i 0).val < 8192 := (i 0).isLt
  have h1 : (i 1).val < 128 := (i 1).isLt
  let t : Fin cfg0.N := ⟨(i 0).val / 512, by omega⟩
  have hi := idx11 t
  refine ⟨t, flush0_11 t, ?_⟩
  rw [mem_blk]
  intro a
  match a with
  | ⟨0, _⟩ =>
    show win0_11.index t (0 : Fin 2) * 512 ≤ (i 0).val ∧ (i 0).val < win0_11.index t (0 : Fin 2) * 512 + 512
    rw [hi.1]; show (i 0).val / 512 * 512 ≤ (i 0).val ∧ (i 0).val < (i 0).val / 512 * 512 + 512; omega
  | ⟨1, _⟩ => show win0_11.index t (1 : Fin 2) * 128 ≤ (i 1).val ∧ (i 1).val < win0_11.index t (1 : Fin 2) * 128 + 128; rw [hi.2]; omega

/-- THE ARRAY after the region: `regionResult`. -/
theorem final (c : Dev nD) : (dats m 0 c).arrAt 11 cfg0.N = regionResult m c :=
  (dats m 0 c).arrAt_eq_of_cover 11 (regionResult m c) (fun t _ => flushed_eq m c t) cover

/-! ## After the region, and the run -/

/-- The result the claim speaks of: entry `(n, c')`, `c' < 10`, is output `c'` of the network on image `n`. -/
def finalResult (c : Dev nD) : S8192x10.Idx → EReal := fun i =>
  netOn m c (pixelRow (m ((c : Thread nD τ).loc main_arg0) : S8192x1x28x28.Idx → EReal) (i 0)) ⟨(i 1).val, Nat.lt_of_lt_of_le (i 1).isLt (by decide)⟩

/-- The host's slice after the region (the first ten columns) turns the region's array into it. -/
theorem tail_v3 (c : Dev nD) :
    Pipeline.afterTail₀ cfgs (dats m) 0 (V0 m) [hostOps1] c main_v3 = finalResult m c := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 11).trans (final m c)
  refine (congrArg (fun X : S8192x128.Idx → Elt Ideal .f32 => extractStridedSlice S8192x10 ![0, 0] X slices_S8192x128_S8192x10_0_0) e).trans ?_
  funext i
  obtain ⟨n, p, rfl⟩ : ∃ (n : Fin 8192) (p : Fin 10), i = ix2 n p := ⟨i 0, i 1, eq_ix2 i⟩
  exact slice2_axis1_apply 0 _ _ n p (⟨p.val, by have := p.isLt; omega⟩ : Fin 128) (Nat.zero_add _).symm

/-- THE RUN, READ: the result array at the network on every image, the arguments unchanged. -/
theorem run : θ_run defs (onTc (τ := τ) (main (F := Ideal))) ⟨m, fun _ => 0, ρ⟩ fun r => ∀ c : Dev nD,
      r.2.mem ((c.tc : Thread nD τ).loc main_v3) = finalResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.ReferenceIdeal.Hand

end
-- ==== Proof.lean ====
/-
  The certificate's claims for a LeNet-5 forward pass written as five chained matrix products.

  Both programs compute, for each of 8192 one-channel 28×28 images, the same function of the image's 784 pixels (Proof/Spec.lean,
  `net`): two pooled stages (a product with a matrix whose columns come in four groups, the maximum over the groups, a bias,
  a rectifier), two rectified dense layers and a last dense layer, of which the first ten outputs are kept. They differ in
  where an image sits. The kernel keeps the images on the LAST axis: the host transposes the batch, the body contracts its
  block over the leading (pixel) axis, multiplies each of the four column groups of the first matrix apart, emits the
  last product transposed (with the two factors of every term swapped), and the host transposes the result back. The
  reference keeps one image per row throughout, multiplies the whole first matrix once and cuts the product into its
  four groups, and slices the ten columns off at the end. Over the extended reals a window of columns of a product is
  the product with that window of the matrix, a sum does not depend on where its terms are stored, and multiplication
  commutes; nothing else is used, so the inputs' finiteness is never opened.

  Proof/KernelRows.lean and Proof/RefRows.lean read each body's stored value one image at a time as `net`;
  Proof/KernelValue.lean and Proof/RefValue.lean carry that through the grid's blocks and the host operations around the
  region to the final arrays; here the two final arrays are one function of arguments that agree.
-/
import proofs.«131907_g2000202601506787_pallasbulk_1052_41_alg».proof.Defs
import proofs.«131907_g2000202601506787_pallasbulk_1052_41_alg».proof.Proof.Gen.Kernel
import proofs.«131907_g2000202601506787_pallasbulk_1052_41_alg».proof.Proof.Gen.Kernel.Frame
import proofs.«131907_g2000202601506787_pallasbulk_1052_41_alg».proof.Proof.Gen.KernelIdeal
import proofs.«131907_g2000202601506787_pallasbulk_1052_41_alg».proof.Proof.Gen.KernelIdeal.Frame
import proofs.«131907_g2000202601506787_pallasbulk_1052_41_alg».proof.Proof.Gen.ReferenceIdeal
import proofs.«131907_g2000202601506787_pallasbulk_1052_41_alg».proof.Proof.Gen.ReferenceIdeal.Frame
import proofs.«131907_g2000202601506787_pallasbulk_1052_41_alg».proof.Proof.Gen.Pre_finite_inputs
import proofs.«131907_g2000202601506787_pallasbulk_1052_41_alg».proof.Proof.KernelValue
import proofs.«131907_g2000202601506787_pallasbulk_1052_41_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference. -/
theorem frame_ri : Cert.frame_ReferenceIdeal := fun m ρ _ => Cert.ReferenceIdeal.Gen.frame m ρ

/-- The ideal pass rewrote nothing. -/
theorem preserves : Cert.preserves_Kernel_KernelIdeal := trivial

/-- Both final arrays hold, at `(n, c)`, output `c` of the network on image `n`, with the weights and biases as launched;
    the arguments agree, so the two arrays are equal. -/
theorem algebraic : Cert.algebraic_KernelIdeal_ReferenceIdeal := by
  intro m ρ m' ρ' _ hagree
  refine ⟨fun c => Cert.KernelIdeal.Hand.finalResult m c, Cert.KernelIdeal.Hand.run m ρ, ?_⟩
  refine (θ_run Cert.ReferenceIdeal.defs _ _).mono (fun _ h c => ⟨(h c).1.trans ?_, (h c).2⟩) (Cert.ReferenceIdeal.Hand.run m' ρ')
  obtain ⟨e0, e1, e2, e3, e4, e5, e6, e7, e8, e9, e10⟩ := hagree c
  unfold Cert.ReferenceIdeal.Hand.finalResult Cert.ReferenceIdeal.Hand.netOn
  rw [e0, e1, e2, e3, e4, e5, e6, e7, e8, e9, e10]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
